-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x128 : Shape := ⟨2, ![1024, 128]⟩
abbrev S1024x1024 : Shape := ⟨2, ![1024, 1024]⟩
abbrev S128x128 : Shape := ⟨2, ![128, 128]⟩
abbrev S128 : Shape := ⟨1, ![128]⟩
abbrev S_ : Shape := ⟨0, ![]⟩

class Facts : Prop where
  bcast_S_S1024x128 : S_.BroadcastsInDim S1024x128 (![] : Fin 0 → Fin S1024x128.rank)
  reducesTo_S1024x128_S_d0_1 : S1024x128.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S1024x128 .f32) (main_arg1 : FVec F S1024x1024 .f32) (main_arg2 : FVec F S128x128 .f32) (main_arg3 : FVec F S128 .f32) (main_arg4 : FVec F S128x128 .f32) (main_arg5 : FVec F S128 .f32) : IVec S_ 1 :=
  let main_v0 : FVec F S1024x128 .f32 := Host.absf main_arg0
  let main_cst : FVec F S_ .f32 := constant S_ .f32 0x7F800000#32
  let main_v1 : FVec F S1024x128 .f32 := broadcastInDim S1024x128 ![] bcast_S_S1024x128 main_cst
  let main_v2 : IVec S1024x128 1 := cmpf .olt main_v0 main_v1
  let main_c : IVec S_ 1 := constantI S_ 1 1#1
  let main_v3 : IVec S_ 1 := (fun x v => Host.reduce IntOp.andi x v reducesTo_S1024x128_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S1024x128 : Shape := ⟨2, ![1024, 128]⟩
abbrev S1024x1024 : Shape := ⟨2, ![1024, 1024]⟩
abbrev S128x128 : Shape := ⟨2, ![128, 128]⟩
abbrev S128 : Shape := ⟨1, ![128]⟩
abbrev S1x128 : Shape := ⟨2, ![1, 128]⟩
abbrev S1024 : Shape := ⟨1, ![1024]⟩
abbrev S1x1024 : Shape := ⟨2, ![1, 1024]⟩
abbrev S1024x1 : Shape := ⟨2, ![1024, 1]⟩

abbrev nBuf : Space → Nat
  | .hbm => 9
  | .vmem => 7
  | .smem => 0
  | _ => 0

abbrev bufTy : (tb : Table) → Fin (tcTables nBuf tb) → BufTy
  | .hbm, ⟨0, _⟩ => ⟨S1024x128, .f32⟩
  | .hbm, ⟨1, _⟩ => ⟨S1024x1024, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x128, .f32⟩
  | .hbm, ⟨7, _⟩ => ⟨S1x128, .f32⟩
  | .hbm, ⟨8, _⟩ => ⟨S1024x128, .f32⟩
  | .local _ .vmem, ⟨0, _⟩ => ⟨S1024x128, .f32⟩
  | .local _ .vmem, ⟨1, _⟩ => ⟨S1024x1024, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S1024x128, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

class Facts₀ : Prop where
  shapeCasts_S128_S1x128 : S128.ShapeCasts S1x128
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [0] S1024
  shapeCasts_S1024_S1x1024 : S1024.ShapeCasts S1x1024
  transposes_S1x1024_p1_0_S1024x1 : S1x1024.Transposes [1, 0] S1024x1
  inb_S1024x128_S1024x128_0_0 : ∀ a, (![0, 0] : Fin 2 → Nat) a + S1024x128.size a ≤ S1024x128.size a
  h_S1024x128 : 0 < S1024x128.numel
  inb_S128x128_S128x128_0_0 : ∀ a, (![0, 0] : Fin 2 → Nat) a + S128x128.size a ≤ S128x128.size a
  h_S128x128 : 0 < S128x128.numel
  broadcasts_S1024x1_S1024x128 : S1024x1.Broadcasts S1024x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  dot_S1024x128_S128x128_S1024x128_1_0_0_1_n_n_wf : DotDims.WF S1024x128 S128x128 S1024x128 [1] [0] [0] [1] [] []
  dot_S1024x1024_S1024x128_S1024x128_0_0_1_1_n_n_wf : DotDims.WF S1024x1024 S1024x128 S1024x128 [0] [0] [1] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hstage0_6 : ∀ j, (stage0_6 j).IsWhole

variable [Facts₀]

def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x1024_S1024x128_S1024x128_0_0_1_1_n_n : DotDims S1024x1024 S1024x128 S1024x128 where
  lhsContracting := [0]
  rhsContracting := [0]
  lhsNonContracting := [1]
  rhsNonContracting := [1]
  lhsBatch := []
  rhsBatch := []
  wf := dot_S1024x1024_S1024x128_S1024x128_0_0_1_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_arg2) false false (stage0_2 0) (sem0_2 0) (Memref.isWhole_whole _) (hstage0_2 0)

abbrev win0_3 : Pipeline.Window sig grid0 :=
  Pipeline.Window.whole (Memref.whole main_v0) false false (stage0_3 0) (sem0_3 0) (Memref.isWhole_whole _) (hstage0_3 0)

abbrev win0_4 : Pipeline.Window sig grid0 :=
  Pipeline.Window.whole (Memref.whole main_arg4) false false (stage0_4 0) (sem0_4 0) (Memref.isWhole_whole _) (hstage0_4 0)

abbrev win0_5 : Pipeline.Window sig grid0 :=
  Pipeline.Window.whole (Memref.whole main_v1) false false (stage0_5 0) (sem0_5 0) (Memref.isWhole_whole _) (hstage0_5 0)

abbrev win0_6 : Pipeline.Window sig grid0 :=
  Pipeline.Window.whole (Memref.whole main_v2) true false (stage0_6 0) (sem0_6 0) (Memref.isWhole_whole _) (hstage0_6 0)

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S1024x128 : Shape := ⟨2, ![1024, 128]⟩
abbrev S1024x1024 : Shape := ⟨2, ![1024, 1024]⟩
abbrev S128x128 : Shape := ⟨2, ![128, 128]⟩
abbrev S128 : Shape := ⟨1, ![128]⟩
abbrev S1024 : Shape := ⟨1, ![1024]⟩
abbrev S1048576 : Shape := ⟨1, ![1048576]⟩
abbrev S1x1024 : Shape := ⟨2, ![1, 1024]⟩
abbrev S1049600 : Shape := ⟨1, ![1049600]⟩
abbrev S_ : Shape := ⟨0, ![]⟩
abbrev S1049600x1 : Shape := ⟨2, ![1049600, 1]⟩
abbrev S1049600x128 : Shape := ⟨2, ![1049600, 128]⟩
abbrev S1x128 : Shape := ⟨2, ![1, 128]⟩

abbrev nBuf : Space → Nat
  | .hbm => 170
  | .vmem => 0
  | .smem => 0
  | _ => 0

abbrev hbmTy0_0 (i : Nat) : BufTy := match i % 128 with
  | 0 => ⟨S1024x128, .f32⟩
  | 1 => ⟨S1024x1024, .f32⟩
  | 2 => ⟨S128x128, .f32⟩
  | 3 => ⟨S128, .f32⟩
  | 4 => ⟨S128x128, .f32⟩
  | 5 => ⟨S128, .f32⟩
  | 6 => ⟨S1024, .i32⟩
  | 7 => ⟨S1024x1024, .i32⟩
  | 8 => ⟨S1048576, .i32⟩
  | 9 => ⟨S1024, .i32⟩
  | 10 => ⟨S1x1024, .i32⟩
  | 11 => ⟨S1024x1024, .i32⟩
  | 12 => ⟨S1048576, .i32⟩
  | 13 => ⟨S1048576, .f32⟩
  | 14 => ⟨S1024, .i32⟩
  | 15 => ⟨S1049600, .i32⟩
  | 16 => ⟨S1049600, .i32⟩
  | 17 => ⟨S_, .f32⟩
  | 18 => ⟨S1024, .f32⟩
  | 19 => ⟨S1049600, .f32⟩
  | 20 => ⟨S_, .f32⟩
  | 21 => ⟨S1024, .f32⟩
  | 22 => ⟨S_, .i32⟩
  | 23 => ⟨S1049600, .i32⟩
  | 24 => ⟨S1049600, .i1⟩
  | 25 => ⟨S_, .i32⟩
  | 26 => ⟨S1049600, .i32⟩
  | 27 => ⟨S1049600, .i32⟩
  | 28 => ⟨S1049600, .i32⟩
  | 29 => ⟨S1049600x1, .i32⟩
  | 30 => ⟨S1024, .f32⟩
  | 31 => ⟨S_, .f32⟩
  | 32 => ⟨S1024, .f32⟩
  | 33 => ⟨S1024, .i1⟩
  | 34 => ⟨S1024, .f32⟩
  | 35 => ⟨S_, .f32⟩
  | 36 => ⟨S1024, .f32⟩
  | 37 => ⟨S1024, .f32⟩
  | 38 => ⟨S_, .f32⟩
  | 39 => ⟨S_, .f32⟩
  | 40 => ⟨S1024, .f32⟩
  | 41 => ⟨S1024, .f32⟩
  | 42 => ⟨S_, .i32⟩
  | 43 => ⟨S1049600, .i32⟩
  | 44 => ⟨S1049600, .i1⟩
  | 45 => ⟨S_, .i32⟩
  | 46 => ⟨S1049600, .i32⟩
  | 47 => ⟨S1049600, .i32⟩
  | 48 => ⟨S1049600, .i32⟩
  | 49 => ⟨S1049600x1, .i32⟩
  | 50 => ⟨S1049600, .f32⟩
  | 51 => ⟨S1049600, .f32⟩
  | 52 => ⟨S_, .i32⟩
  | 53 => ⟨S1049600, .i32⟩
  | 54 => ⟨S1049600, .i1⟩
  | 55 => ⟨S_, .i32⟩
  | 56 => ⟨S1049600, .i32⟩
  | 57 => ⟨S1049600, .i32⟩
  | 58 => ⟨S1049600, .i32⟩
  | 59 => ⟨S1049600x1, .i32⟩
  | 60 => ⟨S1049600, .f32⟩
  | 61 => ⟨S1049600, .f32⟩
  | 62 => ⟨S1024x128, .f32⟩
  | 63 => ⟨S1049600x1, .f32⟩
  | 64 => ⟨S_, .i32⟩
  | 65 => ⟨S1049600, .i32⟩
  | 66 => ⟨S1049600, .i1⟩
  | 67 => ⟨S_, .i32⟩
  | 68 => ⟨S1049600, .i32⟩
  | 69 => ⟨S1049600, .i32⟩
  | 70 => ⟨S1049600, .i32⟩
  | 71 => ⟨S1049600x1, .i32⟩
  | 72 => ⟨S1049600x128, .f32⟩
  | 73 => ⟨S1049600x128, .f32⟩
  | 74 => ⟨S1049600x128, .f32⟩
  | 75 => ⟨S_, .f32⟩
  | 76 => ⟨S1024x128, .f32⟩
  | 77 => ⟨S_, .i32⟩
  | 78 => ⟨S1049600, .i32⟩
  | 79 => ⟨S1049600, .i1⟩
  | 80 => ⟨S_, .i32⟩
  | 81 => ⟨S1049600, .i32⟩
  | 82 => ⟨S1049600, .i32⟩
  | 83 => ⟨S1049600, .i32⟩
  | 84 => ⟨S1049600x1, .i32⟩
  | 85 => ⟨S1024x128, .f32⟩
  | 86 => ⟨S1x128, .f32⟩
  | 87 => ⟨S1024x128, .f32⟩
  | 88 => ⟨S1024x128, .f32⟩
  | 89 => ⟨S_, .f32⟩
  | 90 => ⟨S1024x128, .f32⟩
  | 91 => ⟨S1024x128, .f32⟩
  | 92 => ⟨S1024, .i32⟩
  | 93 => ⟨S1049600, .i32⟩
  | 94 => ⟨S1049600, .i32⟩
  | 95 => ⟨S_, .f32⟩
  | 96 => ⟨S1024, .f32⟩
  | 97 => ⟨S1049600, .f32⟩
  | 98 => ⟨S_, .f32⟩
  | 99 => ⟨S1024, .f32⟩
  | 100 => ⟨S_, .i32⟩
  | 101 => ⟨S1049600, .i32⟩
  | 102 => ⟨S1049600, .i1⟩
  | 103 => ⟨S_, .i32⟩
  | 104 => ⟨S1049600, .i32⟩
  | 105 => ⟨S1049600, .i32⟩
  | 106 => ⟨S1049600, .i32⟩
  | 107 => ⟨S1049600x1, .i32⟩
  | 108 => ⟨S1024, .f32⟩
  | 109 => ⟨S_, .f32⟩
  | 110 => ⟨S1024, .f32⟩
  | 111 => ⟨S1024, .i1⟩
  | 112 => ⟨S1024, .f32⟩
  | 113 => ⟨S_, .f32⟩
  | 114 => ⟨S1024, .f32⟩
  | 115 => ⟨S1024, .f32⟩
  | 116 => ⟨S_, .f32⟩
  | 117 => ⟨S_, .f32⟩
  | 118 => ⟨S1024, .f32⟩
  | 119 => ⟨S1024, .f32⟩
  | 120 => ⟨S_, .i32⟩
  | 121 => ⟨S1049600, .i32⟩
  | 122 => ⟨S1049600, .i1⟩
  | 123 => ⟨S_, .i32⟩
  | 124 => ⟨S1049600, .i32⟩
  | 125 => ⟨S1049600, .i32⟩
  | 126 => ⟨S1049600, .i32⟩
  | 127 => ⟨S1049600x1, .i32⟩
  | _ => ⟨S1024x128, .f32⟩

abbrev hbmTy0_1 (i : Nat) : BufTy := match i % 128 with
  | 0 => ⟨S1049600, .f32⟩
  | 1 => ⟨S1049600, .f32⟩
  | 2 => ⟨S_, .i32⟩
  | 3 => ⟨S1049600, .i32⟩
  | 4 => ⟨S1049600, .i1⟩
  | 5 => ⟨S_, .i32⟩
  | 6 => ⟨S1049600, .i32⟩
  | 7 => ⟨S1049600, .i32⟩
  | 8 => ⟨S1049600, .i32⟩
  | 9 => ⟨S1049600x1, .i32⟩
  | 10 => ⟨S1049600, .f32⟩
  | 11 => ⟨S1049600, .f32⟩
  | 12 => ⟨S1024x128, .f32⟩
  | 13 => ⟨S1049600x1, .f32⟩
  | 14 => ⟨S_, .i32⟩
  | 15 => ⟨S1049600, .i32⟩
  | 16 => ⟨S1049600, .i1⟩
  | 17 => ⟨S_, .i32⟩
  | 18 => ⟨S1049600, .i32⟩
  | 19 => ⟨S1049600, .i32⟩
  | 20 => ⟨S1049600, .i32⟩
  | 21 => ⟨S1049600x1, .i32⟩
  | 22 => ⟨S1049600x128, .f32⟩
  | 23 => ⟨S1049600x128, .f32⟩
  | 24 => ⟨S1049600x128, .f32⟩
  | 25 => ⟨S_, .f32⟩
  | 26 => ⟨S1024x128, .f32⟩
  | 27 => ⟨S_, .i32⟩
  | 28 => ⟨S1049600, .i32⟩
  | 29 => ⟨S1049600, .i1⟩
  | 30 => ⟨S_, .i32⟩
  | 31 => ⟨S1049600, .i32⟩
  | 32 => ⟨S1049600, .i32⟩
  | 33 => ⟨S1049600, .i32⟩
  | 34 => ⟨S1049600x1, .i32⟩
  | 35 => ⟨S1024x128, .f32⟩
  | 36 => ⟨S1x128, .f32⟩
  | 37 => ⟨S1024x128, .f32⟩
  | 38 => ⟨S1024x128, .f32⟩
  | 39 => ⟨S_, .f32⟩
  | 40 => ⟨S1024x128, .f32⟩
  | 41 => ⟨S1024x128, .f32⟩
  | _ => ⟨S1024x128, .f32⟩

abbrev hbmTy (i : Nat) : BufTy := match i / 128 with
  | 0 => hbmTy0_0 i
  | 1 => hbmTy0_1 i
  | _ => ⟨S1024x128, .f32⟩

abbrev bufTy : (tb : Table) → Fin (tcTables nBuf tb) → BufTy
  | .hbm, ⟨i, _⟩ => hbmTy i
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_c : Ref sig .tc := ⟨.hbm, 22, rfl⟩
abbrev main_v14 : Ref sig .tc := ⟨.hbm, 23, rfl⟩
abbrev main_v15 : Ref sig .tc := ⟨.hbm, 24, rfl⟩
abbrev main_c_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_call0_v0 : Ref sig .tc := ⟨.hbm, 39, rfl⟩
abbrev main_call0_v1 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_c_8 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_c_9 : Ref sig .tc := ⟨.hbm, 64, rfl⟩
abbrev main_v45 : Ref sig .tc := ⟨.hbm, 65, rfl⟩
abbrev main_v46 : Ref sig .tc := ⟨.hbm, 66, rfl⟩
abbrev main_c_10 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_11 : Ref sig .tc := ⟨.hbm, 75, rfl⟩
abbrev main_v54 : Ref sig .tc := ⟨.hbm, 76, rfl⟩
abbrev main_c_12 : Ref sig .tc := ⟨.hbm, 77, rfl⟩
abbrev main_v55 : Ref sig .tc := ⟨.hbm, 78, rfl⟩
abbrev main_v56 : Ref sig .tc := ⟨.hbm, 79, rfl⟩
abbrev main_c_13 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call1_cst : Ref sig .tc := ⟨.hbm, 89, rfl⟩
abbrev main_call1_v0 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_14 : Ref sig .tc := ⟨.hbm, 95, rfl⟩
abbrev main_v69 : Ref sig .tc := ⟨.hbm, 96, rfl⟩
abbrev main_v70 : Ref sig .tc := ⟨.hbm, 97, rfl⟩
abbrev main_cst_15 : Ref sig .tc := ⟨.hbm, 98, rfl⟩
abbrev main_v71 : Ref sig .tc := ⟨.hbm, 99, rfl⟩
abbrev main_c_16 : Ref sig .tc := ⟨.hbm, 100, rfl⟩
abbrev main_v72 : Ref sig .tc := ⟨.hbm, 101, rfl⟩
abbrev main_v73 : Ref sig .tc := ⟨.hbm, 102, rfl⟩
abbrev main_c_17 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_18 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_19 : Ref sig .tc := ⟨.hbm, 113, rfl⟩
abbrev main_v82 : Ref sig .tc := ⟨.hbm, 114, rfl⟩
abbrev main_v83 : Ref sig .tc := ⟨.hbm, 115, rfl⟩
abbrev main_cst_20 : Ref sig .tc := ⟨.hbm, 116, rfl⟩
abbrev main_call2_v0 : Ref sig .tc := ⟨.hbm, 117, rfl⟩
abbrev main_call2_v1 : Ref sig .tc := ⟨.hbm, 118, rfl⟩
abbrev main_v84 : Ref sig .tc := ⟨.hbm, 119, rfl⟩
abbrev main_c_21 : Ref sig .tc := ⟨.hbm, 120, rfl⟩
abbrev main_v85 : Ref sig .tc := ⟨.hbm, 121, rfl⟩
abbrev main_v86 : Ref sig .tc := ⟨.hbm, 122, rfl⟩
abbrev main_c_22 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_c_23 : Ref sig .tc := ⟨.hbm, 130, rfl⟩
abbrev main_v93 : Ref sig .tc := ⟨.hbm, 131, rfl⟩
abbrev main_v94 : Ref sig .tc := ⟨.hbm, 132, rfl⟩
abbrev main_c_24 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_c_25 : Ref sig .tc := ⟨.hbm, 142, rfl⟩
abbrev main_v103 : Ref sig .tc := ⟨.hbm, 143, rfl⟩
abbrev main_v104 : Ref sig .tc := ⟨.hbm, 144, rfl⟩
abbrev main_c_26 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_cst_27 : Ref sig .tc := ⟨.hbm, 153, rfl⟩
abbrev main_v112 : Ref sig .tc := ⟨.hbm, 154, rfl⟩
abbrev main_c_28 : Ref sig .tc := ⟨.hbm, 155, rfl⟩
abbrev main_v113 : Ref sig .tc := ⟨.hbm, 156, rfl⟩
abbrev main_v114 : Ref sig .tc := ⟨.hbm, 157, rfl⟩
abbrev main_c_29 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_call3_cst : Ref sig .tc := ⟨.hbm, 167, rfl⟩
abbrev main_call3_v0 : Ref sig .tc := ⟨.hbm, 168, rfl⟩
abbrev main_v123 : Ref sig .tc := ⟨.hbm, 169, rfl⟩

abbrev nD : Nat := 1
abbrev τ : Topo := Topo.v7x

variable {F : FTy → Type} [FloatOps F]

class Facts₀ : Prop where
  bcast_S1024_S1024x1024_0 : S1024.BroadcastsInDim S1024x1024 (![0] : Fin 1 → Fin S1024x1024.rank)
  shapeCasts_S1024x1024_S1048576 : S1024x1024.ShapeCasts S1048576
  shapeCasts_S1024_S1x1024 : S1024.ShapeCasts S1x1024
  bcast_S1x1024_S1024x1024_0_1 : S1x1024.BroadcastsInDim S1024x1024 (![0, 1] : Fin 2 → Fin S1024x1024.rank)
  concatenates_S1048576_S1024_S1049600_d0 : Shape.Concatenates [S1048576, S1024] S1049600 0
  bcast_S_S1024 : S_.BroadcastsInDim S1024 (![] : Fin 0 → Fin S1024.rank)
  bcast_S_S1049600 : S_.BroadcastsInDim S1049600 (![] : Fin 0 → Fin S1049600.rank)
  bcast_S1049600_S1049600x1_0 : S1049600.BroadcastsInDim S1049600x1 (![0] : Fin 1 → Fin S1049600x1.rank)
  bcast_S1049600x1_S1049600x128_0_1 : S1049600x1.BroadcastsInDim S1049600x128 (![0, 1] : Fin 2 → Fin S1049600x128.rank)
  bcast_S_S1024x128 : S_.BroadcastsInDim S1024x128 (![] : Fin 0 → Fin S1024x128.rank)
  bcast_S128_S1x128_1 : S128.BroadcastsInDim S1x128 (![1] : Fin 1 → Fin S1x128.rank)
  bcast_S1x128_S1024x128_0_1 : S1x128.BroadcastsInDim S1024x128 (![0, 1] : Fin 2 → Fin S1024x128.rank)
  scatter_S1024_S1049600x1_S1049600_n_0_0_1_wf : ScatterDims.WF S1024 S1049600x1 S1049600 [] [0] [0] 1
  gather_S1024_S1049600x1_S1049600_n_0_n_n_0_1_1_wf : GatherDims.WF S1024 S1049600x1 S1049600 [] [0] [] [0] [] 1 ![1]
  dot_S1024x128_S128x128_S1024x128_1_0_0_1_n_n_wf : DotDims.WF S1024x128 S128x128 S1024x128 [1] [0] [0] [1] [] []
  gather_S1024x128_S1049600x1_S1049600x128_1_0_n_n_0_1_1128_wf : GatherDims.WF S1024x128 S1049600x1 S1049600x128 [1] [0] [] [0] [] 1 ![1, 128]
  scatter_S1024x128_S1049600x1_S1049600x128_1_0_0_1_wf : ScatterDims.WF S1024x128 S1049600x1 S1049600x128 [1] [0] [0] 1

variable [Facts₀]

def scatter_S1024_S1049600x1_S1049600_n_0_0_1 : ScatterDims S1024 S1049600x1 S1049600 where
  updateWindowDims := []
  insertedWindowDims := [0]
  scatterDimsToOperandDims := [0]
  indexVectorDim := 1
  wf := scatter_S1024_S1049600x1_S1049600_n_0_0_1_wf
def gather_S1024_S1049600x1_S1049600_n_0_n_n_0_1_1 : GatherDims S1024 S1049600x1 S1049600 where
  offsetDims := []
  collapsedSliceDims := [0]
  operandBatchingDims := []
  startIndicesBatchingDims := []
  startIndexMap := [0]
  indexVectorDim := 1
  sliceSizes := ![1]
  wf := gather_S1024_S1049600x1_S1049600_n_0_n_n_0_1_1_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def gather_S1024x128_S1049600x1_S1049600x128_1_0_n_n_0_1_1128 : GatherDims S1024x128 S1049600x1 S1049600x128 where
  offsetDims := [1]
  collapsedSliceDims := [0]
  operandBatchingDims := []
  startIndicesBatchingDims := []
  startIndexMap := [0]
  indexVectorDim := 1
  sliceSizes := ![1, 128]
  wf := gather_S1024x128_S1049600x1_S1049600x128_1_0_n_n_0_1_1128_wf
def scatter_S1024x128_S1049600x1_S1049600x128_1_0_0_1 : ScatterDims S1024x128 S1049600x1 S1049600x128 where
  updateWindowDims := [1]
  insertedWindowDims := [0]
  scatterDimsToOperandDims := [0]
  indexVectorDim := 1
  wf := scatter_S1024x128_S1049600x1_S1049600x128_1_0_0_1_wf

class Facts : Prop extends Facts₀ where

variable [Facts]
-- ==== Proof.Spec.lean ====
/-
  A two-layer graph convolution with symmetric normalisation, as functions of coordinates on the extended reals.

  Nodes are `Fin 1024`, features `Fin 128`. `A r c` is the weight of the edge from node `r` to node `c`. Every node also
  has a self loop of weight one, so the in-degree of `c` is the column sum of `A` plus one, and the scale of a node is
  the reciprocal square root of its in-degree where that is positive, zero elsewhere. One layer sends a feature table
  `H` to `relu (Â H + b)` with `Â c r = s r · A r c · s c` off the diagonal plus `s c · s c` on it.

  The layer is written twice. `convK` scales the table, sums it over the incoming edges, adds the node's own scaled
  row and scales again: dense linear algebra. `convR` sums, over the incoming edges and the self loop, the table's row
  times the edge's own normalised weight: message passing. The two agree on finite values by distributivity
  (`Cert.Gcn.outK_eq_outR`, in the module after this one).
-/
import Idealize.ShloMosaic.PureOps.Ideal

noncomputable section

open scoped BigOperators

namespace Cert.Gcn

open Idealize.ShloMosaic

/-- The in-degree of node `c`, its self loop counted. -/
def deg (A : Fin 1024 → Fin 1024 → EReal) (c : Fin 1024) : EReal := (∑ r, A r c) + 1

/-- A node's scale, by the reciprocal square root. -/
def scaleK (A : Fin 1024 → Fin 1024 → EReal) (c : Fin 1024) : EReal :=
  if 0 < deg A c then Ideal.rsqrt (deg A c) else 0

/-- A node's scale, by the quotient of one by the square root. -/
def scaleR (A : Fin 1024 → Fin 1024 → EReal) (c : Fin 1024) : EReal :=
  if 0 < deg A c then Ideal.div 1 (Ideal.sqrt (deg A c)) else 0

/-- A feature table times a weight matrix. -/
def lin (H : Fin 1024 → Fin 128 → EReal) (W : Fin 128 → Fin 128 → EReal) (p : Fin 1024) (q : Fin 128) : EReal :=
  ∑ k, H p k * W k q

/-- One layer as dense linear algebra: `relu (s ⊙ (Aᵀ (s ⊙ H) + s ⊙ H) + b)`. -/
def convK (s : Fin 1024 → EReal) (A : Fin 1024 → Fin 1024 → EReal) (H : Fin 1024 → Fin 128 → EReal)
    (b : Fin 128 → EReal) (p : Fin 1024) (q : Fin 128) : EReal :=
  max (s p * ((∑ r, A r p * (s r * H r q)) + s p * H p q) + b q) 0

/-- One layer as message passing: every edge into `p`, and `p`'s self loop, carries its source's row times its own
    normalised weight. -/
def convR (s : Fin 1024 → EReal) (A : Fin 1024 → Fin 1024 → EReal) (H : Fin 1024 → Fin 128 → EReal)
    (b : Fin 128 → EReal) (p : Fin 1024) (q : Fin 128) : EReal :=
  max (((∑ r, (s r * A r p * s p) * H r q) + (s p * s p) * H p q) + b q) 0

/-- Two layers, dense. -/
def outK (X : Fin 1024 → Fin 128 → EReal) (A : Fin 1024 → Fin 1024 → EReal) (W1 : Fin 128 → Fin 128 → EReal)
    (b1 : Fin 128 → EReal) (W2 : Fin 128 → Fin 128 → EReal) (b2 : Fin 128 → EReal) : Fin 1024 → Fin 128 → EReal :=
  convK (scaleK A) A (lin (convK (scaleK A) A (lin X W1) b1) W2) b2

/-- Two layers, by messages. -/
def outR (X : Fin 1024 → Fin 128 → EReal) (A : Fin 1024 → Fin 1024 → EReal) (W1 : Fin 128 → Fin 128 → EReal)
    (b1 : Fin 128 → EReal) (W2 : Fin 128 → Fin 128 → EReal) (b2 : Fin 128 → EReal) : Fin 1024 → Fin 128 → EReal :=
  convR (scaleR A) A (lin (convR (scaleR A) A (lin X W1) b1) W2) b2

end Cert.Gcn

end
-- ==== Proof.LibPlainDot.lean ====
/-
  A plain matrix product read at an entry. For the dimension numbers of `M×K` by `K×N` with no batch axis
  (`DotDims.plain M K N`: the left operand contracted on its columns, the right on its rows), the sum over
  the one-axis contraction index of any function of the two operand indices is the sum over `k : Fin K` of
  that function at `(p, k)` and `(k, c)` (`sum_plain`). Hence, on the extended reals, a `tpu.matmul` into
  the zero accumulator and a host `dot_general`, read at `(p, c)`, are both `∑ k, A (p, k) * B (k, c)`
  (`matmul_plain_zero_apply`, `dotGeneral_plain_apply`), for every `M`, `K`, `N`.
-/
import Idealize.ShloMosaic.PureOps.Ideal.Laws
import Idealize.ShloMosaic.Lib.ValueIdx

noncomputable section

open scoped BigOperators

namespace Cert.Lib.PlainDot

open Idealize.ShloMosaic Idealize.ShloMosaic.ValueIdx

variable {M K N : Nat}

/-- The left operand's index at output `(p, c)` and contraction coordinate `k` is `(p, k)`. -/
theorem lhsIdx_plain (p : Fin M) (c : Fin N) (k : Fin K) :
    (DotDims.plain M K N).lhsIdx (ix2 p c) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p c) _).trans hk

/-- The right operand's index at output `(p, c)` and contraction coordinate `k` is `(k, c)`. -/
theorem rhsIdx_plain (p : Fin M) (c : Fin N) (k : Fin K) :
    (DotDims.plain M K N).rhsIdx (ix2 p c) ((contrEquiv1 (DotDims.plain M K N) K rfl rfl).symm k) = ix2 k c := by
  have hk := contrEquiv1_symm_val (DotDims.plain M K N) K rfl rfl k
  funext a
  apply Fin.ext
  match a with
  | ⟨0, _⟩ => exact ((DotDims.plain M K N).rhsIdx_val_of_single rfl (ix2 p c) _).trans hk
  | ⟨1, _⟩ => rfl

/-- A sum over the contraction index of a plain product's dimension numbers, of any function of the two
    operand indices, is the sum over the shared axis's coordinate. -/
theorem sum_plain {β : Type*} [AddCommMonoid β]
    (f : (⟨2, ![M, K]⟩ : Shape).Idx → (⟨2, ![K, N]⟩ : Shape).Idx → β) (p : Fin M) (c : Fin N) :
    ∑ q : (DotDims.plain M K N).contr.Idx,
        f ((DotDims.plain M K N).lhsIdx (ix2 p c) q) ((DotDims.plain M K N).rhsIdx (ix2 p c) q)
      = ∑ k : Fin K, f (ix2 p k) (ix2 k c) := by
  rw [← Equiv.sum_comp (contrEquiv1 (DotDims.plain M K N) K rfl rfl).symm]
  refine Finset.sum_congr rfl fun k _ => ?_
  rw [lhsIdx_plain, rhsIdx_plain]

/-- On the extended reals a `tpu.matmul` of `A : M×K` and `B : K×N` into the zero accumulator, read at
    `(p, c)`, is `∑ k, A (p, k) * B (k, c)`. -/
theorem matmul_plain_zero_apply {φ₁ φ₂ : FTy} (prec : Option ContractPrecision)
    (A : FVec Ideal ⟨2, ![M, K]⟩ φ₁) (B : FVec Ideal ⟨2, ![K, N]⟩ φ₂) (p : Fin M) (c : Fin N) :
    FloatOps.matmul (DotDims.plain M K N) prec A B (constant ⟨2, ![M, N]⟩ .f32 0x00000000#32) (ix2 p c)
      = ∑ k : Fin K, A (ix2 p k) * B (ix2 k c) :=
  (Ideal.matmul_constant_zero_apply (DotDims.plain M K N) prec A B (ix2 p c)).trans
    (sum_plain (fun i j => A i * B j) p c)

/-- On the extended reals a host `dot_general` of `A : M×K` and `B : K×N`, read at `(p, c)`, is the
    same sum, whatever the schedule. -/
theorem dotGeneral_plain_apply {φ₁ φ₂ : FTy} (prec : Option ContractPrecision) (sched : HostSchedule)
    (A : FVec Ideal ⟨2, ![M, K]⟩ φ₁) (B : FVec Ideal ⟨2, ![K, N]⟩ φ₂) (p : Fin M) (c : Fin N) :
    FloatOps.dotGeneral (DotDims.plain M K N) prec sched A B (ix2 p c)
      = ∑ k : Fin K, A (ix2 p k) * B (ix2 k c) :=
  (Ideal.dotGeneral_apply (DotDims.plain M K N) prec sched A B (ix2 p c)).trans
    (sum_plain (fun i j => A i * B j) p c)

end Cert.Lib.PlainDot

end
-- ==== Proof.LibLhsTransposedDot.lean ====
/-
  A matrix product whose left operand is contracted on its ROWS, read at an entry. For the dimension numbers of
  `K×M` by `K×N` with no batch axis, both operands contracted on axis 0 (`lhsT K M N`: the product `Aᵀ B` taken
  without forming the transpose), the sum over the one-axis contraction index of any function of the two operand
  indices is the sum over `k : Fin K` of that function at `(k, p)` and `(k, c)` (`sum_lhsT`). Hence, on the
  extended reals, a `tpu.matmul` into the zero accumulator and a host `dot_general`, read at `(p, c)`, are both
  `∑ k, A (k, p) * B (k, c)` (`matmul_lhsT_zero_apply`, `dotGeneral_lhsT_apply`), for every `K`, `M`, `N`.
-/
import Idealize.ShloMosaic.PureOps.Ideal.Laws
import Idealize.ShloMosaic.Lib.ValueIdx

noncomputable section

open scoped BigOperators

namespace Cert.Lib.LhsTransposedDot

open Idealize.ShloMosaic Idealize.ShloMosaic.ValueIdx

variable {K M N : Nat}

/-- The dimension numbers `<[0], [0], [1], [1], [0, 1, 1, 1], [], []>`: `K×M` by `K×N` into `M×N`, both operands
    contracted on their rows. Their conditions `wf` are decided on a program's literal shapes. -/
abbrev lhsT (K M N : Nat) (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

variable (wf : DotDims.WF ⟨2, ![K, M]⟩ ⟨2, ![K, N]⟩ ⟨2, ![M, N]⟩ [0] [0] [1] [1] [] [])

/-- The left operand's index at output `(p, c)` and contraction coordinate `k` is `(k, p)`. -/
theorem lhsIdx_lhsT (p : Fin M) (c : Fin N) (k : Fin K) :
    (lhsT K M N wf).lhsIdx (ix2 p c) ((contrEquiv1 (lhsT K M N wf) K rfl rfl).symm k) = ix2 k p := by
  have hk := contrEquiv1_symm_val (lhsT K M N wf) K rfl rfl k
  funext a
  apply Fin.ext
  match a with
  | ⟨0, _⟩ => exact ((lhsT K M N wf).lhsIdx_val_of_single rfl (ix2 p c) _).trans hk
  | ⟨1, _⟩ => rfl

/-- The right operand's index at output `(p, c)` and contraction coordinate `k` is `(k, c)`. -/
theorem rhsIdx_lhsT (p : Fin M) (c : Fin N) (k : Fin K) :
    (lhsT K M N wf).rhsIdx (ix2 p c) ((contrEquiv1 (lhsT K M N wf) K rfl rfl).symm k) = ix2 k c := by
  have hk := contrEquiv1_symm_val (lhsT K M N wf) K rfl rfl k
  funext a
  apply Fin.ext
  match a with
  | ⟨0, _⟩ => exact ((lhsT K M N wf).rhsIdx_val_of_single rfl (ix2 p c) _).trans hk
  | ⟨1, _⟩ => rfl

/-- A sum over the contraction index of these dimension numbers, of any function of the two operand indices, is
    the sum over the shared row coordinate. -/
theorem sum_lhsT {β : Type*} [AddCommMonoid β]
    (f : (⟨2, ![K, M]⟩ : Shape).Idx → (⟨2, ![K, N]⟩ : Shape).Idx → β) (p : Fin M) (c : Fin N) :
    ∑ q : (lhsT K M N wf).contr.Idx,
        f ((lhsT K M N wf).lhsIdx (ix2 p c) q) ((lhsT K M N wf).rhsIdx (ix2 p c) q)
      = ∑ k : Fin K, f (ix2 k p) (ix2 k c) := by
  rw [← Equiv.sum_comp (contrEquiv1 (lhsT K M N wf) K rfl rfl).symm]
  refine Finset.sum_congr rfl fun k _ => ?_
  rw [lhsIdx_lhsT, rhsIdx_lhsT]

/-- On the extended reals a `tpu.matmul` of `A : K×M` and `B : K×N`, both contracted on their rows, into the
    zero accumulator, read at `(p, c)`, is `∑ k, A (k, p) * B (k, c)`. -/
theorem matmul_lhsT_zero_apply {φ₁ φ₂ : FTy} (prec : Option ContractPrecision)
    (A : FVec Ideal ⟨2, ![K, M]⟩ φ₁) (B : FVec Ideal ⟨2, ![K, N]⟩ φ₂) (p : Fin M) (c : Fin N) :
    FloatOps.matmul (lhsT K M N wf) prec A B (constant ⟨2, ![M, N]⟩ .f32 0x00000000#32) (ix2 p c)
      = ∑ k : Fin K, A (ix2 k p) * B (ix2 k c) :=
  (Ideal.matmul_constant_zero_apply (lhsT K M N wf) prec A B (ix2 p c)).trans
    (sum_lhsT wf (fun i j => A i * B j) p c)

/-- On the extended reals a host `dot_general` with the same dimension numbers, read at `(p, c)`, is the same
    sum, whatever the schedule. -/
theorem dotGeneral_lhsT_apply {φ₁ φ₂ : FTy} (prec : Option ContractPrecision) (sched : HostSchedule)
    (A : FVec Ideal ⟨2, ![K, M]⟩ φ₁) (B : FVec Ideal ⟨2, ![K, N]⟩ φ₂) (p : Fin M) (c : Fin N) :
    FloatOps.dotGeneral (lhsT K M N wf) prec sched A B (ix2 p c)
      = ∑ k : Fin K, A (ix2 k p) * B (ix2 k c) :=
  (Ideal.dotGeneral_apply (lhsT K M N wf) prec sched A B (ix2 p c)).trans
    (sum_lhsT wf (fun i j => A i * B j) p c)

end Cert.Lib.LhsTransposedDot

end
-- ==== Proof.LibColumnBroadcast.lean ====
/-
  A column broadcast along its unit axis, read at an entry: an `[a, 1]` array broadcast to `[a, b]` reads, at
  `(p, c)`, the column's entry at row `p`. With the transpose `[1, a] → [a, 1]` and the cast `[a] → [1, a]` this is
  how a sum taken down the rows of a matrix comes back as a per-row factor of another matrix.
-/
import Idealize.ShloMosaic.Lib.Pipeline.Value
import Idealize.ShloMosaic.Lib.ValueIdx

noncomputable section

namespace Cert.Lib.ColumnBroadcast

open Idealize.ShloMosaic Idealize.ShloMosaic.ValueIdx

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.Lib.ColumnBroadcast

end
-- ==== Proof.KernelLayer.lean ====
/-
  The kernel's arithmetic as two pure functions of vectors, each read at an entry on the extended reals.

  `scaleCol A` is the node scale as a column `[1024, 1]`: the column sums of the adjacency `A` (a sum down the
  rows), plus one, then the reciprocal square root where that degree is positive and zero elsewhere, transposed
  from a row to a column. `layer A s h w b` is one graph convolution: the table `h` times the weights `w`, each row
  scaled by `s`; the adjacency's transpose applied to that (a product contracting the ROWS of `A`), plus the scaled
  table itself for the self loops; each row scaled by `s` again; the bias row `b` added to every row; the maximum
  with zero. The body's whole value is `layer` of `layer` (`pay_eq_layers`, by unfolding), so each piece is read
  at an entry once: the column at `(p, 0)` is `Cert.Gcn.scaleK` of the adjacency's entries (`scaleCol_apply`), and a
  layer at `(p, q)` is `Cert.Gcn.convK` of `Cert.Gcn.lin` of whatever its table reads as (`layer_apply`).
-/
import proofs.«134861_g22935125360907_cont_sun_m_1221_6_alg».proof.Proof.Gen.KernelIdeal.Skeleton
import proofs.«134861_g22935125360907_cont_sun_m_1221_6_alg».proof.Proof.Spec
import proofs.«134861_g22935125360907_cont_sun_m_1221_6_alg».proof.Proof.LibPlainDot
import proofs.«134861_g22935125360907_cont_sun_m_1221_6_alg».proof.Proof.LibLhsTransposedDot
import proofs.«134861_g22935125360907_cont_sun_m_1221_6_alg».proof.Proof.LibColumnBroadcast
import Idealize.ShloMosaic.Lib.Pipeline.Value
import Idealize.ShloMosaic.Lib.ValueLayout
import Idealize.ShloMosaic.Lib.IdealHost

noncomputable section

open scoped BigOperators

namespace Cert.KernelIdeal.KValue

open Cert.KernelIdeal Cert.KernelIdeal.Gen Idealize.ShloMosaic Idealize.ShloMosaic.ValueIdx

/-! ## The two functions, at any float instance -/

section AnyInstance
variable {F : FTy → Type} [FloatOps F]

/-- The in-degrees as a row `[1, 1024]`: the sum of the adjacency down its rows, plus one. -/
noncomputable def degRow (v0 : Vec F S1024x1024 .f32) : FVec F S1x1024 .f32 :=
  have v1 : FVec F S1024 .f32 := multiReduction .add [0] S1024 v0 0x00000000#32 reduces_S1024x1024_S1024 (.inl rfl) rfl
  have v2 : FVec F S1x1024 .f32 := shapeCast S1x1024 v1 shapeCasts_S1024_S1x1024
  have cst_1 : F .f32 := Scalar.ofBits .f32 0x3F800000#32
  have v3 : FVec F S1x1024 .f32 := broadcast S1x1024 cst_1
  addf v2 v3

/-- The node scales as a column `[1024, 1]`: the reciprocal square root of the degree where it is positive, zero
    elsewhere. -/
noncomputable def scaleCol (v0 : Vec F S1024x1024 .f32) : FVec F S1024x1 .f32 :=
  have v4 : FVec F S1x1024 .f32 := degRow v0
  have cst_2 : F .f32 := Scalar.ofBits .f32 0x00000000#32
  have v5 : FVec F S1x1024 .f32 := broadcast S1x1024 cst_2
  have v6 : IVec S1x1024 1 := cmpf .ogt v4 v5
  have v7 : FVec F S1x1024 .f32 := rsqrt v4
  have cst_3 : F .f32 := Scalar.ofBits .f32 0x00000000#32
  have v8 : FVec F S1x1024 .f32 := broadcast S1x1024 cst_3
  have v9 : FVec F S1x1024 .f32 := select v6 v7 v8
  transpose S1024x1 [1, 0] v9 transposes_S1x1024_p1_0_S1024x1

/-- One layer: `max (s ⊙ (Aᵀ (s ⊙ (h w)) + s ⊙ (h w)) + b) 0`, the scale `s` a column and the bias `b` a row. -/
noncomputable def layer (v0 : Vec F S1024x1024 .f32) (s : FVec F S1024x1 .f32) (h : FVec F S1024x128 .f32)
    (w : Vec F S128x128 .f32) (b : Vec F S1x128 .f32) : FVec F S1024x128 .f32 :=
  have cst_8 : FVec F S1024x128 .f32 := constant S1024x128 .f32 0x00000000#32
  have v13 : FVec F S1024x128 .f32 := matmul dot_S1024x128_S128x128_S1024x128_1_0_0_1_n_n none h w cst_8
  have v14 : FVec F S1024x128 .f32 := broadcastTo S1024x128 s broadcasts_S1024x1_S1024x128
  have v15 : FVec F S1024x128 .f32 := mulf v14 v13
  have cst_9 : FVec F S1024x128 .f32 := constant S1024x128 .f32 0x00000000#32
  have v16 : FVec F S1024x128 .f32 := matmul dot_S1024x1024_S1024x128_S1024x128_0_0_1_1_n_n none v0 v15 cst_9
  have v17 : FVec F S1024x128 .f32 := addf v16 v15
  have v18 : FVec F S1024x128 .f32 := broadcastTo S1024x128 s broadcasts_S1024x1_S1024x128
  have v19 : FVec F S1024x128 .f32 := mulf v18 v17
  have v21 : FVec F S1x128 .f32 := shapeCast S1x128 b shapeCasts_S1x128_S1x128
  have v22 : FVec F S1024x128 .f32 := broadcastTo S1024x128 v21 broadcasts_S1x128_S1024x128
  have v23 : FVec F S1024x128 .f32 := addf v19 v22
  have cst_12 : F .f32 := Scalar.ofBits .f32 0x00000000#32
  have v24 : FVec F S1024x128 .f32 := broadcast S1024x128 cst_12
  maximumf v23 v24

set_option maxRecDepth 65536 in
/-- The body's value is two layers over one scale column: its operations are these, in this order. -/
theorem pay_eq_layers (v0 : Vec F S1024x1024 .f32) (v11 : Vec F S1024x128 .f32) (v12 : Vec F S128x128 .f32)
    (v20 : Vec F S1x128 .f32) (v26 : Vec F S128x128 .f32) (v34 : Vec F S1x128 .f32) :
    k0_pay1 (k0_pay2 v0 v11 v12 v20 v26 v34) (Scalar.ofBits .f32 0x00000000#32)
      = layer v0 (scaleCol v0) (layer v0 (scaleCol v0) v11 v12 v20) v26 v34 := rfl

end AnyInstance

/-! ## Read at an entry, on the extended reals -/

section AtIdeal

/-- The body's two dimension-number records are the plain product's and the row-contracting one's. -/
theorem dot_plain_eq : dot_S1024x128_S128x128_S1024x128_1_0_0_1_n_n = DotDims.plain 1024 128 128 := rfl
theorem dot_lhsT_eq : dot_S1024x1024_S1024x128_S1024x128_0_0_1_1_n_n
    = Cert.Lib.LhsTransposedDot.lhsT 1024 1024 128 dot_S1024x1024_S1024x128_S1024x128_0_0_1_1_n_n_wf := rfl

/-- The degree row at `(0, c)` is the in-degree of node `c`: the column sum of the adjacency plus one. -/
theorem degRow_apply (v0 : Vec Ideal S1024x1024 .f32) (c : Fin 1024) :
    degRow v0 (ix2 (0 : Fin 1) c) = Cert.Gcn.deg (fun r a => v0 (ix2 r a)) c := by
  unfold degRow Cert.Gcn.deg
  dsimp only
  rw [addf_apply, broadcast_apply]
  refine congrArg₂ (· + ·) ?_ Ideal.ofBits_one_f32
  refine (shapeCast_a_1a_apply _ shapeCasts_S1024_S1x1024 (0 : Fin 1) c).trans ?_
  refine (Ideal.multiReduction_add_single (φ := .f32) v0 0x00000000#32 reduces_S1024x1024_S1024 (.inl rfl) rfl (ix1 c)).trans ?_
  refine Finset.sum_congr rfl fun k _ => congrArg v0 ?_
  funext a
  apply Fin.ext
  match a with
  | ⟨0, _⟩ => rfl
  | ⟨1, _⟩ => rfl

/-- The scale column at `(p, 0)` is node `p`'s scale. -/
theorem scaleCol_apply (v0 : Vec Ideal S1024x1024 .f32) (p : Fin 1024) :
    scaleCol v0 (ix2 p (0 : Fin 1)) = Cert.Gcn.scaleK (fun r a => v0 (ix2 r a)) p := by
  unfold scaleCol Cert.Gcn.scaleK
  dsimp only
  refine (transpose_ix2_apply _ transposes_S1x1024_p1_0_S1024x1 p (0 : Fin 1)).trans ?_
  rw [select_apply, cmpf_apply, broadcast_apply]
  show Scalar.select (Ideal.cmp .ogt (degRow v0 (ix2 (0 : Fin 1) p)) (Ideal.ofBits .f32 0x00000000#32))
      (Ideal.rsqrt (degRow v0 (ix2 (0 : Fin 1) p))) (Ideal.ofBits .f32 0x00000000#32) = _
  rw [degRow_apply, Ideal.ofBits_zero_f32]
  unfold Scalar.select Ideal.cmp
  by_cases h : 0 < Cert.Gcn.deg (fun r a => v0 (ix2 r a)) p
  · rw [if_pos h]; simp [h]
  · rw [if_neg h]; simp [h]

/-- One layer at `(p, q)`, given what its scale column reads as (`hs`) and what its table reads as (`hh`):
    `Cert.Gcn.convK` of the table times the weights. The table's entries sit under a sum over a bound index, so
    they come in as a hypothesis at every entry. -/
theorem layer_apply (v0 : Vec Ideal S1024x1024 .f32) (s : FVec Ideal S1024x1 .f32) (h : FVec Ideal S1024x128 .f32)
    (w : Vec Ideal S128x128 .f32) (b : Vec Ideal S1x128 .f32)
    (S : Fin 1024 → EReal) (H : Fin 1024 → Fin 128 → EReal)
    (hs : ∀ r : Fin 1024, s (ix2 r (0 : Fin 1)) = S r) (hh : ∀ (r : Fin 1024) (k : Fin 128), h (ix2 r k) = H r k)
    (p : Fin 1024) (q : Fin 128) :
    layer v0 s h w b (ix2 p q)
      = Cert.Gcn.convK S (fun r a => v0 (ix2 r a)) (Cert.Gcn.lin H (fun k c => w (ix2 k c)))
          (fun c => b (ix2 (0 : Fin 1) c)) p q := by
  have hB : ∀ (r : Fin 1024) (c : Fin 128),
      broadcastTo S1024x128 s broadcasts_S1024x1_S1024x128 (ix2 r c) = S r := fun r c =>
    (Cert.Lib.ColumnBroadcast.broadcastTo_a1_ab_apply s broadcasts_S1024x1_S1024x128 r c).trans (hs r)
  have hlin : ∀ (r : Fin 1024) (c : Fin 128),
      matmul dot_S1024x128_S128x128_S1024x128_1_0_0_1_n_n none h w (constant S1024x128 .f32 0x00000000#32) (ix2 r c)
        = Cert.Gcn.lin H (fun k c => w (ix2 k c)) r c := fun r c =>
    (Cert.Lib.PlainDot.matmul_plain_zero_apply none h w r c).trans
      (Finset.sum_congr rfl fun k _ => by rw [hh])
  have h15 : ∀ (r : Fin 1024) (c : Fin 128),
      mulf (broadcastTo S1024x128 s broadcasts_S1024x1_S1024x128)
          (matmul dot_S1024x128_S128x128_S1024x128_1_0_0_1_n_n none h w (constant S1024x128 .f32 0x00000000#32)) (ix2 r c)
        = S r * Cert.Gcn.lin H (fun k c => w (ix2 k c)) r c := fun r c => by
    rw [mulf_apply, hB, hlin]
  have h16 : matmul dot_S1024x1024_S1024x128_S1024x128_0_0_1_1_n_n none v0
        (mulf (broadcastTo S1024x128 s broadcasts_S1024x1_S1024x128)
          (matmul dot_S1024x128_S128x128_S1024x128_1_0_0_1_n_n none h w (constant S1024x128 .f32 0x00000000#32)))
        (constant S1024x128 .f32 0x00000000#32) (ix2 p q)
      = ∑ r : Fin 1024, v0 (ix2 r p) * (S r * Cert.Gcn.lin H (fun k c => w (ix2 k c)) r q) :=
    (Cert.Lib.LhsTransposedDot.matmul_lhsT_zero_apply dot_S1024x1024_S1024x128_S1024x128_0_0_1_1_n_n_wf none v0 _ p q).trans
      (Finset.sum_congr rfl fun r _ => by rw [h15])
  have hb : broadcastTo S1024x128 (shapeCast S1x128 b shapeCasts_S1x128_S1x128) broadcasts_S1x128_S1024x128 (ix2 p q)
      = b (ix2 (0 : Fin 1) q) :=
    (broadcastTo_1b_ab_apply _ broadcasts_S1x128_S1024x128 p q).trans
      (congrFun (shapeCast_self b shapeCasts_S1x128_S1x128) _)
  unfold layer Cert.Gcn.convK
  dsimp only
  rw [maximumf_apply, broadcast_apply, addf_apply, mulf_apply, addf_apply, hB, h15, h16, hb]
  exact congrArg (max _) Ideal.ofBits_zero_f32

/-- THE BODY'S VALUE AT `(p, q)`: the two-layer network `Cert.Gcn.outK` of the six loaded blocks' entries, the two
    bias blocks read along their one row. -/
theorem pay_apply (x0 : Vec Ideal S1024x128 .f32) (x1 : Vec Ideal S1024x1024 .f32) (x2 : Vec Ideal S128x128 .f32)
    (x3 : Vec Ideal S1x128 .f32) (x4 : Vec Ideal S128x128 .f32) (x5 : Vec Ideal S1x128 .f32)
    (p : Fin 1024) (q : Fin 128) :
    k0_pay1 (k0_pay2 x1 x0 x2 x3 x4 x5) (Scalar.ofBits .f32 0x00000000#32) (ix2 p q)
      = Cert.Gcn.outK (fun a k => x0 (ix2 a k)) (fun r a => x1 (ix2 r a)) (fun k b => x2 (ix2 k b))
          (fun b => x3 (ix2 (0 : Fin 1) b)) (fun k b => x4 (ix2 k b)) (fun b => x5 (ix2 (0 : Fin 1) b)) p q := by
  rw [pay_eq_layers]
  unfold Cert.Gcn.outK
  exact layer_apply x1 (scaleCol x1) _ x4 x5 _ _ (scaleCol_apply x1)
    (fun r k => layer_apply x1 (scaleCol x1) x0 x2 x3 _ _ (scaleCol_apply x1) (fun _ _ => rfl) r k) p q

end AtIdeal

end Cert.KernelIdeal.KValue

end
-- ==== Proof.KernelValue.lean ====
/-
  From the one block to the array: the kernel's output at an entry.

  The kernel has no grid: its one point stages every array whole, so each input block read at an entry is the
  array's own entry, the two bias rows `[1, 128]` being reshapes of the bias vectors `[128]` written before the
  region, and the one output block, written back whole, is the array after the run. With the body's value at an
  entry (`pay_apply`) this gives the output array at `(p, q)` as `Cert.Gcn.outK` of the argument arrays' entries
  (`final_apply`).
-/
import proofs.«134861_g22935125360907_cont_sun_m_1221_6_alg».proof.Proof.Gen.KernelIdeal.Value
import proofs.«134861_g22935125360907_cont_sun_m_1221_6_alg».proof.Proof.KernelLayer

set_option maxRecDepth 16384

noncomputable section

open scoped BigOperators

namespace Cert.KernelIdeal.KValue

open Cert.KernelIdeal Cert.KernelIdeal.Gen Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ)

theorem hz : (![0, 0] : Fin 2 → Nat) = fun _ => 0 := funext fun a => by fin_cases a <;> rfl

/-- What the body leaves in the output's buffer is its value on the six blocks: its one store covers the buffer
    and its loads read the blocks whole. -/
theorem out0_6_eq (x0 : Vec Ideal S1024x128 .f32) (x1 : Vec Ideal S1024x1024 .f32) (x2 : Vec Ideal S128x128 .f32)
    (x3 : Vec Ideal S1x128 .f32) (x4 : Vec Ideal S128x128 .f32) (x5 : Vec Ideal S1x128 .f32) :
    out0_6 x0 x1 x2 x3 x4 x5 = k0_pay1 (k0_pay2 x1 x0 x2 x3 x4 x5) (Scalar.ofBits .f32 0x00000000#32) := by
  unfold out0_6
  rw [View.canon_unit_zero hz]
  simp only [View.ld_unit_zero (S := S1024x1024) hz, View.ld_unit_zero (S := S1024x128) hz,
    View.ld_unit_zero (S := S128x128) hz, View.ld_unit_zero (S := S1x128) hz]

/-! ## The input blocks at the one point are the arrays -/

/-- Window 0's block is the feature table `main_arg0` as launched. -/
theorem blk0_apply (c : Dev nD) (t : Fin cfg0.N) (y : S1024x128.Idx) :
    iblk m c 0 t y = m ((c : Thread nD τ).loc main_arg0) y := by
  show V m c main_arg0 (((cfg0.win 0).blk t).view.emb y) = _
  rw [V_main_arg0]
  refine congrArg _ (funext fun a => Fin.ext ?_)
  match a with
  | ⟨0, _⟩ => show 0 * 1024 + 1 * (y 0).val = (y 0).val; omega
  | ⟨1, _⟩ => show 0 * 128 + 1 * (y 1).val = (y 1).val; omega

/-- Window 1's block is the adjacency `main_arg1` as launched. -/
theorem blk1_apply (c : Dev nD) (t : Fin cfg0.N) (y : S1024x1024.Idx) :
    iblk m c 1 t y = m ((c : Thread nD τ).loc main_arg1) y := by
  show V m c main_arg1 (((cfg0.win 1).blk t).view.emb y) = _
  rw [V_main_arg1]
  refine congrArg _ (funext fun a => Fin.ext ?_)
  match a with
  | ⟨0, _⟩ => show 0 * 1024 + 1 * (y 0).val = (y 0).val; omega
  | ⟨1, _⟩ => show 0 * 1024 + 1 * (y 1).val = (y 1).val; omega

/-- Window 2's block is the first weight matrix `main_arg2` as launched. -/
theorem blk2_apply (c : Dev nD) (t : Fin cfg0.N) (y : S128x128.Idx) :
    iblk m c 2 t y = m ((c : Thread nD τ).loc main_arg2) y := by
  show V m c main_arg2 (((cfg0.win 2).blk t).view.emb y) = _
  rw [V_main_arg2]
  refine congrArg _ (funext fun a => Fin.ext ?_)
  match a with
  | ⟨0, _⟩ => show 0 * 128 + 1 * (y 0).val = (y 0).val; omega
  | ⟨1, _⟩ => show 0 * 128 + 1 * (y 1).val = (y 1).val; omega

/-- Window 4's block is the second weight matrix `main_arg4` as launched. -/
theorem blk4_apply (c : Dev nD) (t : Fin cfg0.N) (y : S128x128.Idx) :
    iblk m c 4 t y = m ((c : Thread nD τ).loc main_arg4) y := by
  show V m c main_arg4 (((cfg0.win 4).blk t).view.emb y) = _
  rw [V_main_arg4]
  refine congrArg _ (funext fun a => Fin.ext ?_)
  match a with
  | ⟨0, _⟩ => show 0 * 128 + 1 * (y 0).val = (y 0).val; omega
  | ⟨1, _⟩ => show 0 * 128 + 1 * (y 1).val = (y 1).val; omega

/-- The first bias row, as the region finds it: the bias vector `main_arg3` cast from `[128]` to `[1, 128]`. -/
theorem V_main_v0_eq (c : Dev nD) :
    (V m c main_v0 : S1x128.Idx → EReal)
      = shapeCast S1x128 (m ((c : Thread nD τ).loc main_arg3)) shapeCasts_S128_S1x128 := by
  dsimp only [Gen.V, Gen.hostOps0]; after_results; rfl

/-- The second bias row likewise, of `main_arg5`. -/
theorem V_main_v1_eq (c : Dev nD) :
    (V m c main_v1 : S1x128.Idx → EReal)
      = shapeCast S1x128 (m ((c : Thread nD τ).loc main_arg5)) shapeCasts_S128_S1x128 := by
  dsimp only [Gen.V, Gen.hostOps0]; after_results; rfl

/-- Window 3's block along its one row is the first bias vector. -/
theorem blk3_apply (c : Dev nD) (t : Fin cfg0.N) (b : Fin 128) :
    iblk m c 3 t (ix2 (0 : Fin 1) b) = m ((c : Thread nD τ).loc main_arg3) (ix1 b) := by
  show V m c main_v0 (((cfg0.win 3).blk t).view.emb (ix2 (0 : Fin 1) b)) = _
  have e : ((cfg0.win 3).blk t).view.emb (ix2 (0 : Fin 1) b) = ix2 (0 : Fin 1) b := funext fun a => Fin.ext (by
    match a with
    | ⟨0, _⟩ => show 0 * 1 + 1 * 0 = 0; omega
    | ⟨1, _⟩ => show 0 * 128 + 1 * b.val = b.val; omega)
  rw [e]
  exact (congrFun (V_main_v0_eq m c) _).trans (shapeCast_a_1a_apply _ shapeCasts_S128_S1x128 (0 : Fin 1) b)

/-- Window 5's block along its one row is the second bias vector. -/
theorem blk5_apply (c : Dev nD) (t : Fin cfg0.N) (b : Fin 128) :
    iblk m c 5 t (ix2 (0 : Fin 1) b) = m ((c : Thread nD τ).loc main_arg5) (ix1 b) := by
  show V m c main_v1 (((cfg0.win 5).blk t).view.emb (ix2 (0 : Fin 1) b)) = _
  have e : ((cfg0.win 5).blk t).view.emb (ix2 (0 : Fin 1) b) = ix2 (0 : Fin 1) b := funext fun a => Fin.ext (by
    match a with
    | ⟨0, _⟩ => show 0 * 1 + 1 * 0 = 0; omega
    | ⟨1, _⟩ => show 0 * 128 + 1 * b.val = b.val; omega)
  rw [e]
  exact (congrFun (V_main_v1_eq m c) _).trans (shapeCast_a_1a_apply _ shapeCasts_S128_S1x128 (0 : Fin 1) b)

/-! ## The output array -/

/-- THE OUTPUT ARRAY AFTER THE RUN at `(p, q)`: the two-layer network of the argument arrays' entries. -/
theorem final_apply (c : Dev nD) (p : Fin 1024) (q : Fin 128) :
    (dats m 0 c).arrAt 6 cfg0.N (ix2 p q)
      = Cert.Gcn.outK
          (fun a k => m ((c : Thread nD τ).loc main_arg0) (ix2 a k))
          (fun r a => m ((c : Thread nD τ).loc main_arg1) (ix2 r a))
          (fun k b => m ((c : Thread nD τ).loc main_arg2) (ix2 k b))
          (fun b => m ((c : Thread nD τ).loc main_arg3) (ix1 b))
          (fun k b => m ((c : Thread nD τ).loc main_arg4) (ix2 k b))
          (fun b => m ((c : Thread nD τ).loc main_arg5) (ix1 b)) p q := by
  have hb := congrFun (Value.blocks6 m c t0_0 (flush0_6 t0_0)) (ix2 p q)
  rw [Value.flushed6] at hb
  have e : ((cfg0.win 6).blk t0_0).view.emb (ix2 p q) = ix2 p q := funext fun a => Fin.ext (by
    match a with
    | ⟨0, _⟩ => show 0 * 1024 + 1 * p.val = p.val; omega
    | ⟨1, _⟩ => show 0 * 128 + 1 * q.val = q.val; omega)
  rw [View.read_apply, e] at hb
  refine hb.trans ?_
  show out0_6 (iblk m c 0 t0_0) (iblk m c 1 t0_0) (iblk m c 2 t0_0) (iblk m c 3 t0_0) (iblk m c 4 t0_0) (iblk m c 5 t0_0) (ix2 p q) = _
  refine (congrFun (out0_6_eq (iblk m c 0 t0_0) (iblk m c 1 t0_0) (iblk m c 2 t0_0) (iblk m c 3 t0_0) (iblk m c 4 t0_0) (iblk m c 5 t0_0)) (ix2 p q)).trans ?_
  refine (pay_apply (iblk m c 0 t0_0) (iblk m c 1 t0_0) (iblk m c 2 t0_0) (iblk m c 3 t0_0) (iblk m c 4 t0_0) (iblk m c 5 t0_0) p q).trans ?_
  have e0 : (fun (a : Fin 1024) (k : Fin 128) => iblk m c 0 t0_0 (ix2 a k))
      = fun a k => m ((c : Thread nD τ).loc main_arg0) (ix2 a k) :=
    funext fun a => funext fun k => blk0_apply m c t0_0 (ix2 a k)
  have e1 : (fun (r a : Fin 1024) => iblk m c 1 t0_0 (ix2 r a))
      = fun r a => m ((c : Thread nD τ).loc main_arg1) (ix2 r a) :=
    funext fun r => funext fun a => blk1_apply m c t0_0 (ix2 r a)
  have e2 : (fun (k b : Fin 128) => iblk m c 2 t0_0 (ix2 k b))
      = fun k b => m ((c : Thread nD τ).loc main_arg2) (ix2 k b) :=
    funext fun k => funext fun b => blk2_apply m c t0_0 (ix2 k b)
  have e3 : (fun (b : Fin 128) => iblk m c 3 t0_0 (ix2 (0 : Fin 1) b))
      = fun b => m ((c : Thread nD τ).loc main_arg3) (ix1 b) :=
    funext fun b => blk3_apply m c t0_0 b
  have e4 : (fun (k b : Fin 128) => iblk m c 4 t0_0 (ix2 k b))
      = fun k b => m ((c : Thread nD τ).loc main_arg4) (ix2 k b) :=
    funext fun k => funext fun b => blk4_apply m c t0_0 (ix2 k b)
  have e5 : (fun (b : Fin 128) => iblk m c 5 t0_0 (ix2 (0 : Fin 1) b))
      = fun b => m ((c : Thread nD τ).loc main_arg5) (ix1 b) :=
    funext fun b => blk5_apply m c t0_0 b
  rw [e0, e1, e2, e3, e4, e5]

end Cert.KernelIdeal.KValue

end
-- ==== Proof.LibSegmentSum.lean ====
/-
  Accumulating scatters (jnp `.at[idx].add(v)`, `jax.ops.segment_sum`) read at an index, on the extended reals.

  A `stablehlo.scatter` whose body adds lands every update element on the operand element its start index names: the
  start is read SIGNED off the index array and is NOT clamped, and an update whose landing place is outside the operand
  is dropped. At the exact instance the result element is the operand's plus the sum of the updates landing on it.
  Three layouts are read here at coordinates, each as "operand plus the sum over the update's leading axis of the update
  where the index word names this element, zero elsewhere":
  * `rows`: operand `[N, C]`, indices `[R, 1]`, updates `[R, C]` — update row `e` is added to operand row `idx[e,0]`
    (a segment sum of rows);
  * `cells`: operand `[N]`, indices `[R, 1]`, updates `[R]` — update `e` is added to element `idx[e,0]` (a histogram,
    a degree count);
  * `pairs`: operand `[N, M]`, indices `[R, 2]`, updates `[R]` — update `e` is added to element `(idx[e,0], idx[e,1])`
    (a dense matrix assembled from coordinate triples).
-/
import Idealize.ShloMosaic.PureOps.Ideal
import Idealize.ShloMosaic.Lib.ValueIdx

noncomputable section

open scoped BigOperators

namespace Idealize.ShloMosaic.SegmentSum

open Idealize.ShloMosaic Idealize.ShloMosaic.ValueIdx

/-! ## Rows: `[N, C]` at `[R, 1]` by `[R, C]` -/

/-- The dimension numbers of a scatter of whole rows: the update's axis 1 is the window, the operand's axis 0 is the
    one the index names. -/
abbrev rowsDims (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

variable {N R C M w : Nat}

/-- Where update element `(e, k)` lands: row `idx[e, 0]` read signed, column `k`; nowhere when that row is outside. -/
theorem rows_resultIdx? (wf : ScatterDims.WF ⟨2, ![N, C]⟩ ⟨2, ![R, 1]⟩ ⟨2, ![R, C]⟩ [1] [0] [0] 1)
    (idx : IVec ⟨2, ![R, 1]⟩ w) (e : Fin R) (k : Fin C) (r : Fin N) (c : Fin C) :
    (rowsDims N R C wf).resultIdx? (ix2 e k) idx = some (ix2 r c)
      ↔ (idx (ix2 e 0)).toInt = (r.val : Int) ∧ k = c := by
  have hs0 : (rowsDims N R C wf).start (ix2 e k) idx 0 = (idx (ix2 e 0)).toInt := by
    unfold ScatterDims.start
    rw [dif_pos (show (0 : Fin 2) ∈ (rowsDims N R C wf).scatterDimsToOperandDims from List.mem_singleton.mpr rfl)]
    congr 2
    funext b; refine Fin.ext ?_
    match b with
    | ⟨0, _⟩ => rfl
    | ⟨1, _⟩ => rfl
  have hs1 : (rowsDims N R C wf).start (ix2 e k) idx 1 = 0 := by
    unfold ScatterDims.start
    rw [dif_neg (show (1 : Fin 2) ∉ ([0] : List (Fin 2)) by decide)]
  have hw0 : (rowsDims N R C wf).window (ix2 e k) 0 = 0 := by
    unfold ScatterDims.window
    have hk : (rowsDims N R C wf).sKept = ([1] : List (Fin 2)) := rfl
    rw [dif_neg (hk ▸ (by decide : (0 : Fin 2) ∉ ([1] : List (Fin 2))))]
  have hw1 : (rowsDims N R C wf).window (ix2 e k) 1 = k.val := by
    unfold ScatterDims.window
    have hk : (rowsDims N R C wf).sKept = ([1] : List (Fin 2)) := rfl
    rw [dif_pos (hk ▸ (by decide : (1 : Fin 2) ∈ ([1] : List (Fin 2))))]
    rfl
  unfold ScatterDims.resultIdx?
  constructor
  · intro h
    split at h
    · rename_i hin
      have h' := Option.some.inj h
      have h0 := congrArg (fun i => ((i (0 : Fin 2) : Fin _) : ℕ)) h'
      have h1 := congrArg (fun i => ((i (1 : Fin 2) : Fin _) : ℕ)) h'
      simp only [hs0, hs1, hw0, hw1] at h0 h1
      have hin0 := hin 0
      rw [hs0, hw0] at hin0
      refine ⟨?_, Fin.ext ?_⟩
      · have : ((idx (ix2 e 0)).toInt + ((0 : ℕ) : Int)).toNat = r.val := h0
        omega
      · have : ((0 : Int) + (k.val : Int)).toNat = c.val := h1
        omega
    · exact absurd h (by simp)
  · rintro ⟨hr, rfl⟩
    have e0 : (rowsDims N R C wf).start (ix2 e k) idx 0 + (rowsDims N R C wf).window (ix2 e k) 0 = (r.val : Int) := by
      rw [hs0, hw0, hr]; omega
    have e1 : (rowsDims N R C wf).start (ix2 e k) idx 1 + (rowsDims N R C wf).window (ix2 e k) 1 = (k.val : Int) := by
      rw [hs1, hw1]; omega
    have hin : ∀ a : Fin 2, 0 ≤ (rowsDims N R C wf).start (ix2 e k) idx a + (rowsDims N R C wf).window (ix2 e k) a
        ∧ (rowsDims N R C wf).start (ix2 e k) idx a + (rowsDims N R C wf).window (ix2 e k) a < (⟨2, ![N, C]⟩ : Shape).size a := by
      intro a
      match a with
      | ⟨0, _⟩ =>
        have h : 0 ≤ (rowsDims N R C wf).start (ix2 e k) idx 0 + (rowsDims N R C wf).window (ix2 e k) 0
            ∧ (rowsDims N R C wf).start (ix2 e k) idx 0 + (rowsDims N R C wf).window (ix2 e k) 0 < (N : Int) := by
          rw [e0]; have := r.isLt; constructor <;> omega
        exact h
      | ⟨1, _⟩ =>
        have h : 0 ≤ (rowsDims N R C wf).start (ix2 e k) idx 1 + (rowsDims N R C wf).window (ix2 e k) 1
            ∧ (rowsDims N R C wf).start (ix2 e k) idx 1 + (rowsDims N R C wf).window (ix2 e k) 1 < (C : Int) := by
          rw [e1]; have := k.isLt; constructor <;> omega
        exact h
    rw [dif_pos hin]
    congr 1
    funext a; refine Fin.ext ?_
    match a with
    | ⟨0, _⟩ =>
      show ((rowsDims N R C wf).start (ix2 e k) idx 0 + (rowsDims N R C wf).window (ix2 e k) 0).toNat = r.val
      rw [e0]; omega
    | ⟨1, _⟩ =>
      show ((rowsDims N R C wf).start (ix2 e k) idx 1 + (rowsDims N R C wf).window (ix2 e k) 1).toNat = k.val
      rw [e1]; omega

/-- THE ROW SCATTER READ AT `(r, c)`: the operand's element plus the sum, over the update rows `e` whose index word
    `idx[e, 0]` (read signed) is `r`, of the update's element `(e, c)`. Rows whose index is negative or `≥ N` add
    nothing. -/
theorem scatterAdd_rows_apply {φ : FTy} (wf : ScatterDims.WF ⟨2, ![N, C]⟩ ⟨2, ![R, 1]⟩ ⟨2, ![R, C]⟩ [1] [0] [0] 1)
    (x : FVec Ideal ⟨2, ![N, C]⟩ φ) (idx : IVec ⟨2, ![R, 1]⟩ w) (upd : FVec Ideal ⟨2, ![R, C]⟩ φ) (r : Fin N) (c : Fin C) :
    Host.scatterAdd (rowsDims N R C wf) x idx upd (ix2 r c)
      = x (ix2 r c) + ∑ e : Fin R, if (idx (ix2 e 0)).toInt = (r.val : Int) then upd (ix2 e c) else 0 := by
  show Ideal.hostScatterAdd (rowsDims N R C wf) x idx upd (ix2 r c) = _
  unfold Ideal.hostScatterAdd
  congr 1
  rw [Finset.sum_filter, sum_idx2]
  refine Finset.sum_congr rfl fun e _ => ?_
  simp only [rows_resultIdx?]
  by_cases h : (idx (ix2 e 0)).toInt = (r.val : Int)
  · simp only [h, true_and, if_true]
    rw [Finset.sum_ite_eq' Finset.univ c fun k => upd (ix2 e k)]
    simp
  · simp [h]

/-! ## Cells: `[N]` at `[R, 1]` by `[R]` -/

/-- The dimension numbers of a scatter of single elements into a vector. -/
abbrev cellsDims (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- Where update element `e` lands: element `idx[e, 0]` read signed; nowhere when that is outside. -/
theorem cells_resultIdx? (wf : ScatterDims.WF ⟨1, ![N]⟩ ⟨2, ![R, 1]⟩ ⟨1, ![R]⟩ [] [0] [0] 1)
    (idx : IVec ⟨2, ![R, 1]⟩ w) (e : Fin R) (r : Fin N) :
    (cellsDims N R wf).resultIdx? (ix1 e) idx = some (ix1 r) ↔ (idx (ix2 e 0)).toInt = (r.val : Int) := by
  have hs0 : (cellsDims N R wf).start (ix1 e) idx 0 = (idx (ix2 e 0)).toInt := by
    unfold ScatterDims.start
    rw [dif_pos (show (0 : Fin 1) ∈ (cellsDims N R wf).scatterDimsToOperandDims from List.mem_singleton.mpr rfl)]
    congr 2
    funext b; refine Fin.ext ?_
    match b with
    | ⟨0, _⟩ => rfl
    | ⟨1, _⟩ => rfl
  have hw0 : (cellsDims N R wf).window (ix1 e) 0 = 0 := by
    unfold ScatterDims.window
    have hk : (cellsDims N R wf).sKept = ([] : List (Fin 1)) := rfl
    rw [dif_neg (hk ▸ List.not_mem_nil)]
  unfold ScatterDims.resultIdx?
  constructor
  · intro h
    split at h
    · rename_i hin
      have h0 := congrArg (fun i => ((i (0 : Fin 1) : Fin _) : ℕ)) (Option.some.inj h)
      simp only [hs0, hw0] at h0
      have hin0 := hin 0
      rw [hs0, hw0] at hin0
      have : ((idx (ix2 e 0)).toInt + ((0 : ℕ) : Int)).toNat = r.val := h0
      omega
    · exact absurd h (by simp)
  · intro hr
    have e0 : (cellsDims N R wf).start (ix1 e) idx 0 + (cellsDims N R wf).window (ix1 e) 0 = (r.val : Int) := by
      rw [hs0, hw0, hr]; omega
    have hin : ∀ a : Fin 1, 0 ≤ (cellsDims N R wf).start (ix1 e) idx a + (cellsDims N R wf).window (ix1 e) a
        ∧ (cellsDims N R wf).start (ix1 e) idx a + (cellsDims N R wf).window (ix1 e) a < (⟨1, ![N]⟩ : Shape).size a := by
      intro a
      match a with
      | ⟨0, _⟩ =>
        have h : 0 ≤ (cellsDims N R wf).start (ix1 e) idx 0 + (cellsDims N R wf).window (ix1 e) 0
            ∧ (cellsDims N R wf).start (ix1 e) idx 0 + (cellsDims N R wf).window (ix1 e) 0 < (N : Int) := by
          rw [e0]; have := r.isLt; constructor <;> omega
        exact h
    rw [dif_pos hin]
    congr 1
    funext a; refine Fin.ext ?_
    match a with
    | ⟨0, _⟩ =>
      show ((cellsDims N R wf).start (ix1 e) idx 0 + (cellsDims N R wf).window (ix1 e) 0).toNat = r.val
      rw [e0]; omega

/-- A sum over the indices of a one-axis array is the sum over its coordinate. -/
theorem sum_ix1 {A : Type*} [AddCommMonoid A] {n : Nat} (g : (⟨1, ![n]⟩ : Shape).Idx → A) : ∑ i, g i = ∑ a : Fin n, g (ix1 a) := by
  let eqv : (⟨1, ![n]⟩ : Shape).Idx ≃ Fin n :=
    { toFun := fun i => i 0, invFun := fun a => ix1 a, left_inv := fun i => (eq_ix1 i).symm, right_inv := fun _ => rfl }
  rw [← Equiv.sum_comp eqv.symm g]
  rfl

/-- THE CELL SCATTER READ AT `r`: the operand's element plus the sum of the updates `e` whose index word `idx[e, 0]`
    (read signed) is `r`. With every update `1` this is the number of index words equal to `r`: a degree count. -/
theorem scatterAdd_cells_apply {φ : FTy} (wf : ScatterDims.WF ⟨1, ![N]⟩ ⟨2, ![R, 1]⟩ ⟨1, ![R]⟩ [] [0] [0] 1)
    (x : FVec Ideal ⟨1, ![N]⟩ φ) (idx : IVec ⟨2, ![R, 1]⟩ w) (upd : FVec Ideal ⟨1, ![R]⟩ φ) (r : Fin N) :
    Host.scatterAdd (cellsDims N R wf) x idx upd (ix1 r)
      = x (ix1 r) + ∑ e : Fin R, if (idx (ix2 e 0)).toInt = (r.val : Int) then upd (ix1 e) else 0 := by
  show Ideal.hostScatterAdd (cellsDims N R wf) x idx upd (ix1 r) = _
  unfold Ideal.hostScatterAdd
  congr 1
  rw [Finset.sum_filter, sum_ix1]
  refine Finset.sum_congr rfl fun e _ => ?_
  simp only [cells_resultIdx?]

/-! ## Pairs: `[N, M]` at `[R, 2]` by `[R]` -/

/-- The dimension numbers of a scatter of single elements into a matrix at (row, column) pairs. -/
abbrev pairsDims (N M R : Nat) (wf : ScatterDims.WF ⟨2, ![N, M]⟩ ⟨2, ![R, 2]⟩ ⟨1, ![R]⟩ [] [0, 1] [0, 1] 1) :
    ScatterDims ⟨2, ![N, M]⟩ ⟨2, ![R, 2]⟩ ⟨1, ![R]⟩ where
  updateWindowDims := []
  insertedWindowDims := [0, 1]
  scatterDimsToOperandDims := [0, 1]
  indexVectorDim := 1
  wf := wf

/-- Where update element `e` lands: row `idx[e, 0]`, column `idx[e, 1]`, both read signed; nowhere when either is
    outside the matrix. -/
theorem pairs_resultIdx? (wf : ScatterDims.WF ⟨2, ![N, M]⟩ ⟨2, ![R, 2]⟩ ⟨1, ![R]⟩ [] [0, 1] [0, 1] 1)
    (idx : IVec ⟨2, ![R, 2]⟩ w) (e : Fin R) (r : Fin N) (c : Fin M) :
    (pairsDims N M R wf).resultIdx? (ix1 e) idx = some (ix2 r c)
      ↔ (idx (ix2 e 0)).toInt = (r.val : Int) ∧ (idx (ix2 e 1)).toInt = (c.val : Int) := by
  have hs0 : (pairsDims N M R wf).start (ix1 e) idx 0 = (idx (ix2 e 0)).toInt := by
    unfold ScatterDims.start
    rw [dif_pos (show (0 : Fin 2) ∈ ([0, 1] : List (Fin 2)) by decide)]
    congr 2
    funext b; refine Fin.ext ?_
    match b with
    | ⟨0, _⟩ => rfl
    | ⟨1, _⟩ => rfl
  have hs1 : (pairsDims N M R wf).start (ix1 e) idx 1 = (idx (ix2 e 1)).toInt := by
    unfold ScatterDims.start
    rw [dif_pos (show (1 : Fin 2) ∈ ([0, 1] : List (Fin 2)) by decide)]
    congr 2
    funext b; refine Fin.ext ?_
    match b with
    | ⟨0, _⟩ => rfl
    | ⟨1, _⟩ => rfl
  have hk : (pairsDims N M R wf).sKept = ([] : List (Fin 2)) := rfl
  have hw0 : (pairsDims N M R wf).window (ix1 e) 0 = 0 := by
    unfold ScatterDims.window
    rw [dif_neg (hk ▸ List.not_mem_nil)]
  have hw1 : (pairsDims N M R wf).window (ix1 e) 1 = 0 := by
    unfold ScatterDims.window
    rw [dif_neg (hk ▸ List.not_mem_nil)]
  unfold ScatterDims.resultIdx?
  constructor
  · intro h
    split at h
    · rename_i hin
      have h' := Option.some.inj h
      have h0 := congrArg (fun i => ((i (0 : Fin 2) : Fin _) : ℕ)) h'
      have h1 := congrArg (fun i => ((i (1 : Fin 2) : Fin _) : ℕ)) h'
      simp only [hs0, hs1, hw0, hw1] at h0 h1
      have hin0 := hin 0
      have hin1 := hin 1
      rw [hs0, hw0] at hin0
      rw [hs1, hw1] at hin1
      have g0 : ((idx (ix2 e 0)).toInt + ((0 : ℕ) : Int)).toNat = r.val := h0
      have g1 : ((idx (ix2 e 1)).toInt + ((0 : ℕ) : Int)).toNat = c.val := h1
      constructor <;> omega
    · exact absurd h (by simp)
  · rintro ⟨hr, hc⟩
    have e0 : (pairsDims N M R wf).start (ix1 e) idx 0 + (pairsDims N M R wf).window (ix1 e) 0 = (r.val : Int) := by
      rw [hs0, hw0, hr]; omega
    have e1 : (pairsDims N M R wf).start (ix1 e) idx 1 + (pairsDims N M R wf).window (ix1 e) 1 = (c.val : Int) := by
      rw [hs1, hw1, hc]; omega
    have hin : ∀ a : Fin 2, 0 ≤ (pairsDims N M R wf).start (ix1 e) idx a + (pairsDims N M R wf).window (ix1 e) a
        ∧ (pairsDims N M R wf).start (ix1 e) idx a + (pairsDims N M R wf).window (ix1 e) a < (⟨2, ![N, M]⟩ : Shape).size a := by
      intro a
      match a with
      | ⟨0, _⟩ =>
        have h : 0 ≤ (pairsDims N M R wf).start (ix1 e) idx 0 + (pairsDims N M R wf).window (ix1 e) 0
            ∧ (pairsDims N M R wf).start (ix1 e) idx 0 + (pairsDims N M R wf).window (ix1 e) 0 < (N : Int) := by
          rw [e0]; have := r.isLt; constructor <;> omega
        exact h
      | ⟨1, _⟩ =>
        have h : 0 ≤ (pairsDims N M R wf).start (ix1 e) idx 1 + (pairsDims N M R wf).window (ix1 e) 1
            ∧ (pairsDims N M R wf).start (ix1 e) idx 1 + (pairsDims N M R wf).window (ix1 e) 1 < (M : Int) := by
          rw [e1]; have := c.isLt; constructor <;> omega
        exact h
    rw [dif_pos hin]
    congr 1
    funext a; refine Fin.ext ?_
    match a with
    | ⟨0, _⟩ =>
      show ((pairsDims N M R wf).start (ix1 e) idx 0 + (pairsDims N M R wf).window (ix1 e) 0).toNat = r.val
      rw [e0]; omega
    | ⟨1, _⟩ =>
      show ((pairsDims N M R wf).start (ix1 e) idx 1 + (pairsDims N M R wf).window (ix1 e) 1).toNat = c.val
      rw [e1]; omega

/-- THE PAIR SCATTER READ AT `(r, c)`: the operand's element plus the sum of the updates `e` whose index pair
    `(idx[e, 0], idx[e, 1])` (read signed) is `(r, c)`: the dense matrix of a list of weighted coordinate pairs, repeated
    pairs accumulated. -/
theorem scatterAdd_pairs_apply {φ : FTy} (wf : ScatterDims.WF ⟨2, ![N, M]⟩ ⟨2, ![R, 2]⟩ ⟨1, ![R]⟩ [] [0, 1] [0, 1] 1)
    (x : FVec Ideal ⟨2, ![N, M]⟩ φ) (idx : IVec ⟨2, ![R, 2]⟩ w) (upd : FVec Ideal ⟨1, ![R]⟩ φ) (r : Fin N) (c : Fin M) :
    Host.scatterAdd (pairsDims N M R wf) x idx upd (ix2 r c)
      = x (ix2 r c) + ∑ e : Fin R,
          if (idx (ix2 e 0)).toInt = (r.val : Int) ∧ (idx (ix2 e 1)).toInt = (c.val : Int) then upd (ix1 e) else 0 := by
  show Ideal.hostScatterAdd (pairsDims N M R wf) x idx upd (ix2 r c) = _
  unfold Ideal.hostScatterAdd
  congr 1
  rw [Finset.sum_filter, sum_ix1]
  refine Finset.sum_congr rfl fun e _ => ?_
  simp only [pairs_resultIdx?]

end Idealize.ShloMosaic.SegmentSum

end
-- ==== Proof.LibGatherRows.lean ====
/-
  `stablehlo.gather` of whole rows of a rank-2 table, read at an index.

  What `jnp.take(table, idx, axis=0)` of a table `[N, C]` at a vector of `R` row numbers lowers to: a gather
  with offset_dims `[1]`, collapsed_slice_dims `[0]`, start_index_map `[0]`, index_vector_dim 1 and slice sizes
  `[1, C]`, over the row numbers as a column `[R, 1]`. Result element `(r, c)` is the table at row
  `idx[r, 0]` — read as a signed integer and clamped into `[0, N − 1]`, as the gather clamps every start index —
  and column `c`: on the row axis the operand index is the clamped start (no batching, the axis is collapsed so
  it has no offset), on the column axis it is the result's own column coordinate (the axis is not in the start
  index map, so its start is 0, and it is the one offset axis).
-/
import Idealize.ShloMosaic.Lib.ValueIdx

noncomputable section

namespace Cert.LibGatherRows

open Idealize.ShloMosaic Idealize.ShloMosaic.ValueIdx

variable {α : Type}

/-- Those dimension numbers for a table `[N, C]`, row numbers `[R, 1]` and result `[R, C]`; their conditions
    `wf` are decided on a program's literal shapes. -/
abbrev rowsDims (N C R : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE GATHER READ AT `(r, c)`: the table at the row `idx[r, 0]`, read signed and clamped into `[0, N − 1]`,
    and column `c`. -/
theorem gather_rows_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowsDims N C R wf) x idx (ix2 r c)
      = x (ix2 (⟨min (idx (ix2 r (0 : Fin 1))).toInt.toNat (N - 1), by omega⟩ : Fin N) c) := by
  unfold Host.gather
  congr 1
  funext a
  refine Fin.ext ?_
  match a with
  | ⟨0, _⟩ =>
    show (rowsDims N C R wf).start (ix2 r c) idx 0 + (rowsDims N C R wf).batchCoord (ix2 r c) 0
        + (rowsDims N C R wf).offCoord (ix2 r c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C R wf).startIndexMap from List.mem_singleton.mpr rfl)]
    have hsi : (rowsDims N C R wf).siIdx (ix2 r c) ⟨List.idxOf (0 : Fin 2) (rowsDims N C R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowsDims N C R wf).start (ix2 r c) idx 1 + (rowsDims N C R wf).batchCoord (ix2 r c) 1
        + (rowsDims N C R wf).offCoord (ix2 r c) 1 = c.val
    rw [GatherDims.batchCoord_eq_zero _ _ _ List.not_mem_nil]
    unfold GatherDims.start
    rw [dif_neg (show ¬ (1 : Fin 2) ∈ (rowsDims N C R wf).startIndexMap from
      fun h => absurd (congrArg Fin.val (List.mem_singleton.mp h)) Nat.one_ne_zero)]
    simp only [Nat.add_zero, Nat.zero_add]
    rfl

end Cert.LibGatherRows

end
-- ==== Proof.LibGatherCells.lean ====
/-
  `stablehlo.gather` of single elements of a vector, read at an index.

  What `x[idx]` of a vector `[N]` at a vector of `R` positions lowers to: a gather with no offset axis
  (offset_dims `[]`), collapsed_slice_dims `[0]`, start_index_map `[0]`, index_vector_dim 1 and slice sizes
  `[1]`, over the positions as a column `[R, 1]`. Result element `r` is the vector at position `idx[r, 0]` —
  read as a signed integer and clamped into `[0, N − 1]`, as the gather clamps every start index: on the
  operand's one axis the operand index is the clamped start (no batching, and the axis is collapsed so it has no
  offset).
-/
import Idealize.ShloMosaic.Lib.ValueIdx

noncomputable section

namespace Cert.LibGatherCells

open Idealize.ShloMosaic Idealize.ShloMosaic.ValueIdx

variable {α : Type}

/-- Those dimension numbers for a vector `[N]`, positions `[R, 1]` and result `[R]`; their conditions
    `wf` are decided on a program's literal shapes. -/
abbrev cellsDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- THE GATHER READ AT `r`: the vector at the position `idx[r, 0]`, read signed and clamped into
    `[0, N − 1]`. -/
theorem gather_cells_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (cellsDims N R wf) x idx (ix1 r)
      = x (ix1 (⟨min (idx (ix2 r (0 : Fin 1))).toInt.toNat (N - 1), by omega⟩ : Fin N)) := by
  unfold Host.gather
  congr 1
  funext a
  refine Fin.ext ?_
  match a with
  | ⟨0, _⟩ =>
    show (cellsDims N R wf).start (ix1 r) idx 0 + (cellsDims N R wf).batchCoord (ix1 r) 0
        + (cellsDims N R wf).offCoord (ix1 r) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (cellsDims N R wf).startIndexMap from List.mem_singleton.mpr rfl)]
    have hsi : (cellsDims N R wf).siIdx (ix1 r) ⟨List.idxOf (0 : Fin 1) (cellsDims N R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl

end Cert.LibGatherCells

end
-- ==== Proof.EdgeList.lean ====
/-
  The edge list of a dense 1024 × 1024 adjacency matrix with self loops, and sums over it.

  The list has `1024² + 1024 = 1049600` edges. Edge `r · 1024 + c`, for `r, c < 1024`, is the matrix cell `(r, c)`: it
  goes from node `r` to node `c`. Edge `1024² + j` is the self loop of node `j`. So the edges are in bijection with
  the cells together with the nodes, and a sum over the edges directed into a node `p` is the sum over the cells of
  column `p` plus the self loop's term.
-/
import Idealize.ShloMosaic.Lib.ValueIdx

noncomputable section

open scoped BigOperators

namespace Cert.Gcn

/-- The cell `(r, c)`'s edge. -/
def cellEdge (r c : Fin 1024) : Fin 1049600 := ⟨r.val * 1024 + c.val, by have := r.isLt; have := c.isLt; omega⟩

/-- Node `j`'s self loop. -/
def loopEdge (j : Fin 1024) : Fin 1049600 := ⟨1048576 + j.val, by have := j.isLt; omega⟩

/-- The node an edge leaves. -/
def src (e : Fin 1049600) : Fin 1024 :=
  if h : e.val < 1048576 then ⟨e.val / 1024, by omega⟩ else ⟨e.val - 1048576, by have := e.isLt; omega⟩

/-- The node an edge enters. -/
def dst (e : Fin 1049600) : Fin 1024 :=
  if h : e.val < 1048576 then ⟨e.val % 1024, by omega⟩ else ⟨e.val - 1048576, by have := e.isLt; omega⟩

theorem cellEdge_lt (r c : Fin 1024) : (cellEdge r c).val < 1048576 := by
  have := r.isLt; have := c.isLt; show r.val * 1024 + c.val < 1048576; omega

theorem loopEdge_ge (j : Fin 1024) : ¬ (loopEdge j).val < 1048576 := by
  show ¬ 1048576 + j.val < 1048576; omega

theorem src_cellEdge (r c : Fin 1024) : src (cellEdge r c) = r := by
  unfold src; rw [dif_pos (cellEdge_lt r c)]
  have := c.isLt
  exact Fin.ext (by show (r.val * 1024 + c.val) / 1024 = r.val; omega)

theorem dst_cellEdge (r c : Fin 1024) : dst (cellEdge r c) = c := by
  unfold dst; rw [dif_pos (cellEdge_lt r c)]
  have := c.isLt
  exact Fin.ext (by show (r.val * 1024 + c.val) % 1024 = c.val; omega)

theorem src_loopEdge (j : Fin 1024) : src (loopEdge j) = j := by
  unfold src; rw [dif_neg (loopEdge_ge j)]
  exact Fin.ext (by show 1048576 + j.val - 1048576 = j.val; omega)

theorem dst_loopEdge (j : Fin 1024) : dst (loopEdge j) = j := by
  unfold dst; rw [dif_neg (loopEdge_ge j)]
  exact Fin.ext (by show 1048576 + j.val - 1048576 = j.val; omega)

/-- The edges are the cells and the self loops. -/
def edgeEquiv : (Fin 1024 × Fin 1024) ⊕ Fin 1024 ≃ Fin 1049600 where
  toFun := fun x => match x with
    | .inl rc => cellEdge rc.1 rc.2
    | .inr j => loopEdge j
  invFun := fun e =>
    if h : e.val < 1048576 then .inl (⟨e.val / 1024, by omega⟩, ⟨e.val % 1024, by omega⟩)
    else .inr ⟨e.val - 1048576, by have := e.isLt; omega⟩
  left_inv := by
    intro x
    match x with
    | .inl (r, c) =>
      have := c.isLt
      show (if h : (cellEdge r c).val < 1048576 then _ else _) = _
      rw [dif_pos (cellEdge_lt r c)]
      refine congrArg Sum.inl (Prod.ext (Fin.ext ?_) (Fin.ext ?_))
      · show (r.val * 1024 + c.val) / 1024 = r.val; omega
      · show (r.val * 1024 + c.val) % 1024 = c.val; omega
    | .inr j =>
      show (if h : (loopEdge j).val < 1048576 then _ else _) = _
      rw [dif_neg (loopEdge_ge j)]
      exact congrArg Sum.inr (Fin.ext (by show 1048576 + j.val - 1048576 = j.val; omega))
  right_inv := by
    intro e
    by_cases h : e.val < 1048576
    · simp only [dif_pos h]
      exact Fin.ext (by show e.val / 1024 * 1024 + e.val % 1024 = e.val; omega)
    · simp only [dif_neg h]
      exact Fin.ext (by show 1048576 + (e.val - 1048576) = e.val; omega)

/-- A sum over the edges is the sum over the cells plus the sum over the self loops. -/
theorem sum_edges {M : Type*} [AddCommMonoid M] (g : Fin 1049600 → M) :
    ∑ e, g e = (∑ r : Fin 1024, ∑ c : Fin 1024, g (cellEdge r c)) + ∑ j : Fin 1024, g (loopEdge j) := by
  rw [← Equiv.sum_comp edgeEquiv g, Fintype.sum_sum_type, Fintype.sum_prod_type]
  rfl

/-- THE EDGES INTO A NODE: a sum over the edges that enter `p` is the sum over the cells of column `p` plus the
    term of `p`'s self loop. -/
theorem sum_into {M : Type*} [AddCommMonoid M] (p : Fin 1024) (g : Fin 1049600 → M) :
    (∑ e, if dst e = p then g e else 0) = (∑ r : Fin 1024, g (cellEdge r p)) + g (loopEdge p) := by
  rw [sum_edges]
  simp only [dst_cellEdge, dst_loopEdge]
  rw [Finset.sum_ite_eq' Finset.univ p fun j => g (loopEdge j), if_pos (Finset.mem_univ p)]
  congr 1
  refine Finset.sum_congr rfl fun r _ => ?_
  rw [Finset.sum_ite_eq' Finset.univ p fun c => g (cellEdge r c), if_pos (Finset.mem_univ p)]

end Cert.Gcn

end
-- ==== Proof.RefLayer.lean ====
/-
  One message-passing layer of the reference, read at an index on the extended reals.

  The layer is a function of three edge arrays — the source word, the target word and the weight of each of the
  `1049600` edges — and of a feature table, a weight matrix and a bias. It wraps each word (a negative one would count
  from the end), scatters the weights onto a zero vector at the targets to get the in-degrees, takes
  `1 / √deg` where the degree is positive, gathers that scale at the source and at the target of every edge to form the
  edge's normalised weight, gathers the source's row of the table times the matrix, multiplies, scatters the products
  onto a zero table at the targets, adds the bias and takes the maximum with zero.
  When the words are the source and target numbers of the dense adjacency's edge list (the module on that list) every
  word is in range, the sum over the edges into a node collapses to the sum over a column of the adjacency plus the
  self loop's term, and the layer read at `(p, q)` is the message form `Cert.Gcn.convR`.
-/
import proofs.«134861_g22935125360907_cont_sun_m_1221_6_alg».proof.Proof.Gen.ReferenceIdeal.Read
import proofs.«134861_g22935125360907_cont_sun_m_1221_6_alg».proof.Proof.LibSegmentSum
import proofs.«134861_g22935125360907_cont_sun_m_1221_6_alg».proof.Proof.LibGatherRows
import proofs.«134861_g22935125360907_cont_sun_m_1221_6_alg».proof.Proof.LibGatherCells
import proofs.«134861_g22935125360907_cont_sun_m_1221_6_alg».proof.Proof.Spec
import proofs.«134861_g22935125360907_cont_sun_m_1221_6_alg».proof.Proof.EdgeList
import Idealize.ShloMosaic.Lib.IdealHost

noncomputable section

open scoped BigOperators

namespace Cert.ReferenceIdeal.RefValue

open Cert.ReferenceIdeal Cert.ReferenceIdeal.Gen Cert.ReferenceIdeal.Read Idealize.ShloMosaic Idealize.ShloMosaic.ValueIdx

/-! ## The layer's operations -/

/-- The zero vector over the nodes. -/
def zeroVec : FVec Ideal S1024 .f32 := broadcastInDim S1024 ![] bcast_S_S1024 (constant (F := Ideal) S_ .f32 0x00000000#32)

/-- The vector of ones over the nodes. -/
def oneVec : FVec Ideal S1024 .f32 := broadcastInDim S1024 ![] bcast_S_S1024 (constant (F := Ideal) S_ .f32 0x3F800000#32)

/-- The zero table. -/
def zeroTab : FVec Ideal S1024x128 .f32 :=
  broadcastInDim S1024x128 ![] bcast_S_S1024x128 (constant (F := Ideal) S_ .f32 0x00000000#32)

/-- Node words wrapped (a negative word has 1024 added) and set as a column. -/
def wrapCol (z : IVec S1049600 32) : IVec S1049600x1 32 :=
  broadcastInDim S1049600x1 ![0] bcast_S1049600_S1049600x1_0
    (select (cmpi .slt z (broadcastInDim S1049600 ![] bcast_S_S1049600 (constantI S_ 32 0#32)))
      (addi z (broadcastInDim S1049600 ![] bcast_S_S1049600 (constantI S_ 32 1024#32))) z)

/-- The in-degrees: the weights scattered onto zero at the target words. -/
def degVec (colW : IVec S1049600 32) (wE : FVec Ideal S1049600 .f32) : FVec Ideal S1024 .f32 :=
  Host.scatterAdd scatter_S1024_S1049600x1_S1049600_n_0_0_1 zeroVec (wrapCol colW) wE

/-- The nodes' scales: one over the square root of a positive degree, zero elsewhere. -/
def disVec (colW : IVec S1049600 32) (wE : FVec Ideal S1049600 .f32) : FVec Ideal S1024 .f32 :=
  select (cmpf .ogt (degVec colW wE) zeroVec) (Host.divf oneVec (Host.sqrt (degVec colW wE))) zeroVec

/-- The edges' normalised weights: source scale times weight times target scale. -/
def normVec (rowW colW : IVec S1049600 32) (wE : FVec Ideal S1049600 .f32) : FVec Ideal S1049600 .f32 :=
  mulf (mulf (Host.gather gather_S1024_S1049600x1_S1049600_n_0_n_n_0_1_1 (disVec colW wE) (wrapCol rowW)) wE)
    (Host.gather gather_S1024_S1049600x1_S1049600_n_0_n_n_0_1_1 (disVec colW wE) (wrapCol colW))

/-- The edges' messages: the normalised weight times the source's row of a table. -/
def msgs (rowW colW : IVec S1049600 32) (wE : FVec Ideal S1049600 .f32) (T : FVec Ideal S1024x128 .f32) :
    FVec Ideal S1049600x128 .f32 :=
  mulf (broadcastInDim S1049600x128 ![0, 1] bcast_S1049600x1_S1049600x128_0_1
      (broadcastInDim S1049600x1 ![0] bcast_S1049600_S1049600x1_0 (normVec rowW colW wE)))
    (Host.gather gather_S1024x128_S1049600x1_S1049600x128_1_0_n_n_0_1_1128 T (wrapCol rowW))

/-- The layer. -/
def refLayer (rowW colW : IVec S1049600 32) (wE : FVec Ideal S1049600 .f32) (H : FVec Ideal S1024x128 .f32)
    (W : FVec Ideal S128x128 .f32) (b : FVec Ideal S128 .f32) : FVec Ideal S1024x128 .f32 :=
  maximumf (addf (Host.scatterAdd scatter_S1024x128_S1049600x1_S1049600x128_1_0_0_1 zeroTab (wrapCol colW)
        (msgs rowW colW wE (val_main_v43 (F := Ideal) H W)))
      (broadcastInDim S1024x128 ![0, 1] bcast_S1x128_S1024x128_0_1 (broadcastInDim S1x128 ![1] bcast_S128_S1x128_1 b)))
    zeroTab

/-! ## Constants and words -/

/-- A scalar spread over a shape reads the scalar. -/
theorem splat_apply {α : Type} {t : Shape} (h : S_.BroadcastsInDim t ![]) (y : S_.Idx → α) (i : t.Idx) (k : S_.Idx) :
    broadcastInDim t ![] h y i = y k :=
  broadcastInDim_apply _ h y i k (fun a => a.elim0)

theorem zeroVec_apply (i : S1024.Idx) : zeroVec i = (0 : EReal) := by
  unfold zeroVec
  rw [splat_apply _ _ i (fun a => a.elim0)]
  exact Ideal.ofBits_zero_f32

theorem oneVec_apply (i : S1024.Idx) : oneVec i = (1 : EReal) := by
  unfold oneVec
  rw [splat_apply _ _ i (fun a => a.elim0)]
  exact Ideal.ofBits_one_f32

theorem zeroTab_apply (i : S1024x128.Idx) : zeroTab i = (0 : EReal) := by
  unfold zeroTab
  rw [splat_apply _ _ i (fun a => a.elim0)]
  exact Ideal.ofBits_zero_f32

/-- A node number below 1024, as a 32-bit word, reads back signed as itself. -/
theorem word_toInt (n : ℕ) (h : n < 1024) : (BitVec.ofNat 32 n).toInt = (n : Int) := by
  rw [BitVec.toInt_eq_toNat_cond, BitVec.toNat_ofNat]
  have : n % 2 ^ 32 = n := Nat.mod_eq_of_lt (by omega)
  rw [this, if_pos (by omega)]

/-- Such a word is not negative. -/
theorem word_not_neg (n : ℕ) (h : n < 1024) : IntOp.cmpi .slt (BitVec.ofNat 32 n) 0#32 = 0#1 := by
  unfold IntOp.cmpi
  show BitVec.ofBool ((BitVec.ofNat 32 n).slt 0#32) = 0#1
  have : (BitVec.ofNat 32 n).slt 0#32 = false := by
    rw [BitVec.slt, word_toInt n h]
    simp
  rw [this]; rfl

/-- The wrapped column at edge `e` is the edge's word when that word is a node number. -/
theorem wrapCol_apply (z : IVec S1049600 32) (e : Fin 1049600) (n : Fin 1024) (hz : z (ix1 e) = BitVec.ofNat 32 n.val) :
    wrapCol z (ix2 e (0 : Fin 1)) = BitVec.ofNat 32 n.val := by
  unfold wrapCol
  rw [broadcastInDim_apply _ bcast_S1049600_S1049600x1_0 _ (ix2 e (0 : Fin 1)) (ix1 e) (fun a => match a with
    | ⟨0, _⟩ => by show e.val = if (1049600 : Nat) = 1 then 0 else e.val; rw [if_neg (by decide)])]
  rw [select_apply]
  show Scalar.select (IntOp.cmpi .slt (z (ix1 e))
      (broadcastInDim S1049600 ![] bcast_S_S1049600 (constantI S_ 32 0#32) (ix1 e))) _ (z (ix1 e)) = _
  rw [splat_apply _ _ (ix1 e) (fun a => a.elim0), hz]
  show Scalar.select (IntOp.cmpi .slt (BitVec.ofNat 32 n.val) 0#32) _ _ = _
  rw [word_not_neg n.val n.isLt, select_zero]

/-- The wrapped word, read signed, names node `p` exactly when the edge's node is `p`. -/
theorem wrapCol_names (z : IVec S1049600 32) (e : Fin 1049600) (n : Fin 1024) (hz : z (ix1 e) = BitVec.ofNat 32 n.val)
    (p : Fin 1024) : (wrapCol z (ix2 e (0 : Fin 1))).toInt = (p.val : Int) ↔ n = p := by
  rw [wrapCol_apply z e n hz, word_toInt n.val n.isLt]
  constructor
  · intro h; exact Fin.ext (by exact_mod_cast h)
  · intro h; rw [h]

/-- The node a gather takes for edge `e`: the wrapped word clamped into the table, which is the edge's node. -/
theorem wrapCol_clamped (z : IVec S1049600 32) (e : Fin 1049600) (n : Fin 1024) (hz : z (ix1 e) = BitVec.ofNat 32 n.val) :
    (⟨min (wrapCol z (ix2 e (0 : Fin 1))).toInt.toNat (1024 - 1), by omega⟩ : Fin 1024) = n := by
  refine Fin.ext ?_
  show min (wrapCol z (ix2 e (0 : Fin 1))).toInt.toNat (1024 - 1) = n.val
  rw [wrapCol_apply z e n hz, word_toInt n.val n.isLt]
  have := n.isLt
  omega

end Cert.ReferenceIdeal.RefValue

end
-- ==== Proof.RefRead.lean ====
/-
  The message-passing layer of the reference read at an index: the in-degrees, the scales, the edges' normalised
  weights and messages, and the scattered sum, each read at coordinates from the one before, for edge arrays whose
  words are the source and target numbers of the dense adjacency's edge list.
-/
import proofs.«134861_g22935125360907_cont_sun_m_1221_6_alg».proof.Proof.RefLayer

noncomputable section

open scoped BigOperators

namespace Cert.ReferenceIdeal.RefValue

open Cert.ReferenceIdeal Cert.ReferenceIdeal.Gen Cert.ReferenceIdeal.Read Idealize.ShloMosaic Idealize.ShloMosaic.ValueIdx

/-! ## The layer read at an index -/

/-- A gather of single elements at a wrapped column of node words reads the vector at the edge's node. -/
theorem gather_cell {α : Type} (x : S1024.Idx → α) (z : IVec S1049600 32) (e : Fin 1049600) (n : Fin 1024)
    (hz : z (ix1 e) = BitVec.ofNat 32 n.val) :
    Host.gather gather_S1024_S1049600x1_S1049600_n_0_n_n_0_1_1 x (wrapCol z) (ix1 e) = x (ix1 n) :=
  (Cert.LibGatherCells.gather_cells_apply (by decide) Facts₀.gather_S1024_S1049600x1_S1049600_n_0_n_n_0_1_1_wf x
      (wrapCol z) e).trans (congrArg (fun a => x (ix1 a)) (wrapCol_clamped z e n hz))

/-- A gather of whole rows at a wrapped column of node words reads the table at the edge's node's row. -/
theorem gather_row {α : Type} (x : S1024x128.Idx → α) (z : IVec S1049600 32) (e : Fin 1049600) (n : Fin 1024)
    (hz : z (ix1 e) = BitVec.ofNat 32 n.val) (q : Fin 128) :
    Host.gather gather_S1024x128_S1049600x1_S1049600x128_1_0_n_n_0_1_1128 x (wrapCol z) (ix2 e q) = x (ix2 n q) :=
  (Cert.LibGatherRows.gather_rows_apply (by decide) Facts₀.gather_S1024x128_S1049600x1_S1049600x128_1_0_n_n_0_1_1128_wf x
      (wrapCol z) e q).trans (congrArg (fun a => x (ix2 a q)) (wrapCol_clamped z e n hz))

/-- The bias spread over the rows reads, at `(p, q)`, the bias at `q`. -/
theorem bias_apply {α : Type} (b : S128.Idx → α) (p : Fin 1024) (q : Fin 128) :
    broadcastInDim S1024x128 ![0, 1] bcast_S1x128_S1024x128_0_1 (broadcastInDim S1x128 ![1] bcast_S128_S1x128_1 b) (ix2 p q)
      = b (ix1 q) := by
  rw [broadcastInDim_apply _ bcast_S1x128_S1024x128_0_1 _ (ix2 p q) (ix2 (0 : Fin 1) q) (fun a => match a with
      | ⟨0, _⟩ => by show (0 : Nat) = if (1 : Nat) = 1 then 0 else p.val; rw [if_pos rfl]
      | ⟨1, _⟩ => by show q.val = if (128 : Nat) = 1 then 0 else q.val; rw [if_neg (by decide)]),
    broadcastInDim_apply _ bcast_S128_S1x128_1 b (ix2 (0 : Fin 1) q) (ix1 q) (fun a => match a with
      | ⟨0, _⟩ => by show q.val = if (128 : Nat) = 1 then 0 else q.val; rw [if_neg (by decide)])]

/-- The table times the matrix, read at `(r, q)`. -/
theorem lin_apply (H : FVec Ideal S1024x128 .f32) (W : FVec Ideal S128x128 .f32) (r : Fin 1024) (q : Fin 128) :
    val_main_v43 (F := Ideal) H W (ix2 r q)
      = Cert.Gcn.lin (fun a k => H (ix2 a k)) (fun k c => W (ix2 k c)) r q := by
  rw [val_main_v43_apply]
  unfold Cert.Gcn.lin
  refine Finset.sum_congr rfl fun k _ => ?_
  have el : lidx_main_v43 (ix2 r q) k = ix2 r k := funext fun a => Fin.ext (by
    match a with
    | ⟨0, _⟩ => rfl
    | ⟨1, _⟩ => rfl)
  have er : ridx_main_v43 (ix2 r q) k = ix2 k q := funext fun a => Fin.ext (by
    match a with
    | ⟨0, _⟩ => rfl
    | ⟨1, _⟩ => rfl)
  rw [el, er]

/-! Pointwise forms of the layer's elementwise steps, over arbitrary vectors. -/

theorem scale_point (d z o : FVec Ideal S1024 .f32) (i : S1024.Idx) :
    select (cmpf .ogt d z) (Host.divf o (Host.sqrt d)) z i
      = Scalar.select (Ideal.cmp .ogt (d i) (z i)) (Ideal.div (o i) (Ideal.sqrt (d i))) (z i) := rfl

theorem mul3_point {s : Shape} (a b c : FVec Ideal s .f32) (i : s.Idx) :
    mulf (mulf a b) c i = (a i * b i) * c i := rfl

theorem mul_point {s : Shape} (a b : FVec Ideal s .f32) (i : s.Idx) : mulf a b i = a i * b i := rfl

theorem relu_point {s : Shape} (a b z : FVec Ideal s .f32) (i : s.Idx) :
    maximumf (addf a b) z i = max (a i + b i) (z i) := rfl

section Edges

variable (rowW colW : IVec S1049600 32) (wE : FVec Ideal S1049600 .f32) (A : Fin 1024 → Fin 1024 → EReal)
  (hrow : ∀ e, rowW (ix1 e) = BitVec.ofNat 32 (Cert.Gcn.src e).val)
  (hcol : ∀ e, colW (ix1 e) = BitVec.ofNat 32 (Cert.Gcn.dst e).val)
  (hcell : ∀ r c, wE (ix1 (Cert.Gcn.cellEdge r c)) = A r c)
  (hloop : ∀ j, wE (ix1 (Cert.Gcn.loopEdge j)) = (1 : EReal))

include hcol hcell hloop in
/-- The scattered in-degree of node `j` is its column sum plus its self loop's one. -/
theorem degVec_apply (j : Fin 1024) : degVec colW wE (ix1 j) = Cert.Gcn.deg A j := by
  unfold degVec
  refine (SegmentSum.scatterAdd_cells_apply Facts₀.scatter_S1024_S1049600x1_S1049600_n_0_0_1_wf zeroVec (wrapCol colW) wE
    j).trans ?_
  rw [zeroVec_apply, zero_add]
  simp only [wrapCol_names colW _ _ (hcol _) j]
  rw [Cert.Gcn.sum_into j (fun e => wE (ix1 e))]
  simp only [hcell, hloop]
  rfl

include hcol hcell hloop in
/-- The scale of node `j`. -/
theorem disVec_apply (j : Fin 1024) : disVec colW wE (ix1 j) = Cert.Gcn.scaleR A j := by
  unfold disVec Cert.Gcn.scaleR
  rw [scale_point, degVec_apply colW wE A hcol hcell hloop j, zeroVec_apply, oneVec_apply]
  by_cases h : 0 < Cert.Gcn.deg A j
  · have hc : Ideal.cmp .ogt (Cert.Gcn.deg A j) 0 = 1#1 := by simp [Ideal.cmp, h]
    rw [hc, select_one, if_pos h]
  · have hc : Ideal.cmp .ogt (Cert.Gcn.deg A j) 0 = 0#1 := by simp [Ideal.cmp, h]
    rw [hc, select_zero, if_neg h]

include hrow hcol hcell hloop in
/-- The normalised weight of edge `e`. -/
theorem normVec_apply (e : Fin 1049600) :
    normVec rowW colW wE (ix1 e)
      = Cert.Gcn.scaleR A (Cert.Gcn.src e) * wE (ix1 e) * Cert.Gcn.scaleR A (Cert.Gcn.dst e) := by
  unfold normVec
  rw [mul3_point, gather_cell _ rowW e _ (hrow e), gather_cell _ colW e _ (hcol e),
    disVec_apply colW wE A hcol hcell hloop, disVec_apply colW wE A hcol hcell hloop]

include hrow hcol hcell hloop in
/-- The message of edge `e`, lane `q`. -/
theorem msgs_apply (T : FVec Ideal S1024x128 .f32) (e : Fin 1049600) (q : Fin 128) :
    msgs rowW colW wE T (ix2 e q)
      = (Cert.Gcn.scaleR A (Cert.Gcn.src e) * wE (ix1 e) * Cert.Gcn.scaleR A (Cert.Gcn.dst e))
          * T (ix2 (Cert.Gcn.src e) q) := by
  unfold msgs
  rw [mul_point, broadcastInDim_apply _ bcast_S1049600x1_S1049600x128_0_1 _ (ix2 e q) (ix2 e (0 : Fin 1)) (fun a => match a with
      | ⟨0, _⟩ => by show e.val = if (1049600 : Nat) = 1 then 0 else e.val; rw [if_neg (by decide)]
      | ⟨1, _⟩ => by show (0 : Nat) = if (1 : Nat) = 1 then 0 else q.val; rw [if_pos rfl]),
    broadcastInDim_apply _ bcast_S1049600_S1049600x1_0 _ (ix2 e (0 : Fin 1)) (ix1 e) (fun a => match a with
      | ⟨0, _⟩ => by show e.val = if (1049600 : Nat) = 1 then 0 else e.val; rw [if_neg (by decide)]),
    normVec_apply rowW colW wE A hrow hcol hcell hloop e, gather_row T rowW e _ (hrow e) q]

include hrow hcol hcell hloop in
/-- THE LAYER READ AT `(p, q)`: the message form, over the table, the matrix and the bias read by coordinates. -/
theorem refLayer_apply (H : FVec Ideal S1024x128 .f32) (W : FVec Ideal S128x128 .f32) (b : FVec Ideal S128 .f32)
    (p : Fin 1024) (q : Fin 128) :
    refLayer rowW colW wE H W b (ix2 p q)
      = Cert.Gcn.convR (Cert.Gcn.scaleR A) A (Cert.Gcn.lin (fun a k => H (ix2 a k)) (fun k c => W (ix2 k c)))
          (fun c => b (ix1 c)) p q := by
  have hagg : Host.scatterAdd scatter_S1024x128_S1049600x1_S1049600x128_1_0_0_1 zeroTab (wrapCol colW)
        (msgs rowW colW wE (val_main_v43 (F := Ideal) H W)) (ix2 p q)
      = (∑ r, (Cert.Gcn.scaleR A r * A r p * Cert.Gcn.scaleR A p)
            * Cert.Gcn.lin (fun a k => H (ix2 a k)) (fun k c => W (ix2 k c)) r q)
          + (Cert.Gcn.scaleR A p * Cert.Gcn.scaleR A p)
            * Cert.Gcn.lin (fun a k => H (ix2 a k)) (fun k c => W (ix2 k c)) p q := by
    refine (SegmentSum.scatterAdd_rows_apply Facts₀.scatter_S1024x128_S1049600x1_S1049600x128_1_0_0_1_wf zeroTab
      (wrapCol colW) (msgs rowW colW wE (val_main_v43 (F := Ideal) H W)) p q).trans ?_
    rw [zeroTab_apply, zero_add]
    simp only [wrapCol_names colW _ _ (hcol _) p]
    rw [Cert.Gcn.sum_into p (fun e => msgs rowW colW wE (val_main_v43 (F := Ideal) H W) (ix2 e q))]
    simp only [msgs_apply rowW colW wE A hrow hcol hcell hloop, Cert.Gcn.src_cellEdge, Cert.Gcn.dst_cellEdge,
      Cert.Gcn.src_loopEdge, Cert.Gcn.dst_loopEdge, hcell, hloop, mul_one, lin_apply]
  unfold refLayer Cert.Gcn.convR
  rw [relu_point, hagg, bias_apply, zeroTab_apply]

end Edges

end Cert.ReferenceIdeal.RefValue

end
-- ==== Proof.RefEdges.lean ====
/-
  THE REFERENCE'S EDGE ARRAYS READ AT AN EDGE. The reference lists the edges of the dense 1024 × 1024 adjacency matrix
  with self loops as three arrays of length `1024² + 1024`: the node each edge leaves, the node it enters, and its
  weight. Each is a concatenation of a piece of length `1024²` — one entry per matrix cell, in row-major order, so
  entry `n` is cell `(n / 1024, n % 1024)` — and a piece of length `1024`, one entry per self loop. Read at an edge:
  the two node arrays hold the edge's source and target as 32-bit words, the weight array holds the matrix entry on
  a cell's edge and `1` on a self loop. The second layer builds the same three arrays again.
-/
import proofs.«134861_g22935125360907_cont_sun_m_1221_6_alg».proof.Proof.Gen.ReferenceIdeal.Read
import proofs.«134861_g22935125360907_cont_sun_m_1221_6_alg».proof.Proof.EdgeList
import Idealize.ShloMosaic.Lib.IdealHost

noncomputable section

namespace Cert.ReferenceIdeal.RefEdges

open Cert.ReferenceIdeal Cert.ReferenceIdeal.Gen Cert.ReferenceIdeal.Read Idealize.ShloMosaic Idealize.ShloMosaic.ValueIdx

variable {α : Type}

/-- The concatenation of a piece of length `1024²` and a piece of length `1024`, read below `1024²`: the first piece
    at the same position. -/
theorem concat_left (x₁ : S1048576.Idx → α) (x₂ : S1024.Idx → α) (e : Fin 1049600) (h : e.val < 1048576) :
    concatenate S1049600 0 [⟨S1048576, x₁⟩, ⟨S1024, x₂⟩] concatenates_S1048576_S1024_S1049600_d0 (ix1 e)
      = x₁ (ix1 (⟨e.val, h⟩ : Fin 1048576)) :=
  concatenate_pair_apply_left 0 x₁ x₂ concatenates_S1048576_S1024_S1049600_d0 (ix1 e) rfl
    (ix1 (⟨e.val, h⟩ : Fin 1048576)) (fun b => match b with | ⟨0, _⟩ => rfl)

/-- The same concatenation read at or past `1024²`: the second piece at the position less `1024²`. -/
theorem concat_right (x₁ : S1048576.Idx → α) (x₂ : S1024.Idx → α) (e : Fin 1049600) (h : ¬ e.val < 1048576) :
    concatenate S1049600 0 [⟨S1048576, x₁⟩, ⟨S1024, x₂⟩] concatenates_S1048576_S1024_S1049600_d0 (ix1 e)
      = x₂ (ix1 (⟨e.val - 1048576, by have := e.isLt; omega⟩ : Fin 1024)) :=
  concatenate_pair_apply_right 0 x₁ x₂ concatenates_S1048576_S1024_S1049600_d0 (ix1 e) rfl rfl
    (ix1 (⟨e.val - 1048576, by have := e.isLt; omega⟩ : Fin 1024))
    (fun b hb => match b, hb with | ⟨0, _⟩, hb => absurd rfl hb)
    (by show e.val - 1048576 + 1048576 = e.val; omega)

/-- THE SOURCES: entry `e` of the first node array is the node edge `e` leaves, as a 32-bit word. On a cell's edge
    the row number is broadcast along the row and the matrix flattened, which gives `e / 1024`; on a self loop the
    second piece counts the nodes. -/
theorem rows_word (e : Fin 1049600) : val_main_v9 (F := Ideal) (ix1 e) = BitVec.ofNat 32 (Cert.Gcn.src e).val := by
  unfold val_main_v9
  by_cases h : e.val < 1048576
  · refine (concat_left _ _ e h).trans ?_
    rw [val_main_v2_apply, val_main_v1_apply, val_main_v0_apply]
    unfold Cert.Gcn.src; rw [dif_pos h]
  · refine (concat_right _ _ e h).trans ?_
    rw [val_main_v8_apply]
    unfold Cert.Gcn.src; rw [dif_neg h]

/-- THE TARGETS: entry `e` of the second node array is the node edge `e` enters, as a 32-bit word. On a cell's edge
    the column number is laid along every row and the matrix flattened, which gives `e % 1024`. -/
theorem cols_word (e : Fin 1049600) : val_main_v10 (F := Ideal) (ix1 e) = BitVec.ofNat 32 (Cert.Gcn.dst e).val := by
  unfold val_main_v10
  by_cases h : e.val < 1048576
  · refine (concat_left _ _ e h).trans ?_
    rw [val_main_v6_apply, val_main_v5_apply, val_main_v4_apply, val_main_v3_apply]
    unfold Cert.Gcn.dst; rw [dif_pos h]
    refine congrArg (BitVec.ofNat 32) ?_
    show 0 * 1024 + e.val % 1024 = e.val % 1024
    omega
  · refine (concat_right _ _ e h).trans ?_
    rw [val_main_v8_apply]
    unfold Cert.Gcn.dst; rw [dif_neg h]

/-- THE WEIGHT OF A CELL'S EDGE is the matrix entry of the cell. -/
theorem weight_cell (x1 : FVec Ideal S1024x1024 .f32) (r c : Fin 1024) :
    val_main_v12 (F := Ideal) x1 (ix1 (Cert.Gcn.cellEdge r c)) = x1 (ix2 r c) := by
  unfold val_main_v12
  refine (concat_left _ _ _ (Cert.Gcn.cellEdge_lt r c)).trans ?_
  rw [val_main_v7_apply]
  congr 1
  funext a
  have := c.isLt
  match a with
  | ⟨0, _⟩ => exact Fin.ext (by show (r.val * 1024 + c.val) / 1024 = r.val; omega)
  | ⟨1, _⟩ => exact Fin.ext (by show (r.val * 1024 + c.val) % 1024 = c.val; omega)

/-- THE WEIGHT OF A SELF LOOP is one. -/
theorem weight_loop (x1 : FVec Ideal S1024x1024 .f32) (j : Fin 1024) :
    val_main_v12 (F := Ideal) x1 (ix1 (Cert.Gcn.loopEdge j)) = (1 : EReal) := by
  unfold val_main_v12
  refine (concat_right _ _ _ (Cert.Gcn.loopEdge_ge j)).trans ?_
  rw [val_main_v11_apply, val_main_cst_apply]
  exact Ideal.ofBits_one_f32

/-- The second layer's three arrays are the first layer's: they are built again from the same pieces. -/
theorem rows_second : val_main_v67 (F := Ideal) = val_main_v9 (F := Ideal) := rfl
theorem cols_second : val_main_v68 (F := Ideal) = val_main_v10 (F := Ideal) := rfl
theorem weights_second (x1 : FVec Ideal S1024x1024 .f32) :
    val_main_v70 (F := Ideal) x1 = val_main_v12 (F := Ideal) x1 := rfl

end Cert.ReferenceIdeal.RefEdges

end
-- ==== Proof.RefValue.lean ====
/-
  The reference's result, read at an index, is the two-layer message form.

  Each of the reference's two layers is the generic message-passing layer at the edge arrays the program builds — the
  sources, the targets and the weights of the dense adjacency's edge list, rebuilt identically before the second
  layer —, the first over the input table, the second over the first layer's result. Read at `(p, q)`, layer by layer,
  the result is `Cert.Gcn.outR` of the arguments read by coordinates.
-/
import proofs.«134861_g22935125360907_cont_sun_m_1221_6_alg».proof.Proof.RefRead
import proofs.«134861_g22935125360907_cont_sun_m_1221_6_alg».proof.Proof.RefEdges

noncomputable section

open scoped BigOperators

namespace Cert.ReferenceIdeal.RefValue

open Cert.ReferenceIdeal Cert.ReferenceIdeal.Gen Cert.ReferenceIdeal.Read Idealize.ShloMosaic Idealize.ShloMosaic.ValueIdx

/-- The first layer's stage is the generic layer at the program's edge arrays. -/
theorem layer1_eq (x0 : FVec Ideal S1024x128 .f32) (x1 : FVec Ideal S1024x1024 .f32) (x2 : FVec Ideal S128x128 .f32)
    (x3 : FVec Ideal S128 .f32) :
    val_main_v65 (F := Ideal) x0 x1 x2 x3
      = refLayer (val_main_v9 (F := Ideal)) (val_main_v10 (F := Ideal)) (val_main_v12 (F := Ideal) x1) x0 x2 x3 := rfl

/-- The second layer's stage is the generic layer at the rebuilt edge arrays, over the first layer's result. -/
theorem layer2_eq (x0 : FVec Ideal S1024x128 .f32) (x1 : FVec Ideal S1024x1024 .f32) (x2 : FVec Ideal S128x128 .f32)
    (x3 : FVec Ideal S128 .f32) (x4 : FVec Ideal S128x128 .f32) (x5 : FVec Ideal S128 .f32) :
    val_main_v123 (F := Ideal) x0 x1 x2 x3 x4 x5
      = refLayer (val_main_v67 (F := Ideal)) (val_main_v68 (F := Ideal)) (val_main_v70 (F := Ideal) x1)
          (val_main_v65 (F := Ideal) x0 x1 x2 x3) x4 x5 := rfl

/-- The first layer read at `(p, q)`. -/
theorem layer1_apply (x0 : FVec Ideal S1024x128 .f32) (x1 : FVec Ideal S1024x1024 .f32) (x2 : FVec Ideal S128x128 .f32)
    (x3 : FVec Ideal S128 .f32) (p : Fin 1024) (q : Fin 128) :
    val_main_v65 (F := Ideal) x0 x1 x2 x3 (ix2 p q)
      = Cert.Gcn.convR (Cert.Gcn.scaleR fun r c => x1 (ix2 r c)) (fun r c => x1 (ix2 r c))
          (Cert.Gcn.lin (fun a k => x0 (ix2 a k)) (fun k c => x2 (ix2 k c))) (fun c => x3 (ix1 c)) p q := by
  rw [layer1_eq]
  exact refLayer_apply _ _ _ (fun r c => x1 (ix2 r c)) RefEdges.rows_word RefEdges.cols_word (RefEdges.weight_cell x1)
    (RefEdges.weight_loop x1) x0 x2 x3 p q

/-- THE REFERENCE'S RESULT READ AT `(p, q)`. -/
theorem out_apply (x0 : FVec Ideal S1024x128 .f32) (x1 : FVec Ideal S1024x1024 .f32) (x2 : FVec Ideal S128x128 .f32)
    (x3 : FVec Ideal S128 .f32) (x4 : FVec Ideal S128x128 .f32) (x5 : FVec Ideal S128 .f32) (p : Fin 1024) (q : Fin 128) :
    val_main_v123 (F := Ideal) x0 x1 x2 x3 x4 x5 (ix2 p q)
      = Cert.Gcn.outR (fun a k => x0 (ix2 a k)) (fun r c => x1 (ix2 r c)) (fun k c => x2 (ix2 k c)) (fun c => x3 (ix1 c))
          (fun k c => x4 (ix2 k c)) (fun c => x5 (ix1 c)) p q := by
  have h1 : (fun a k => val_main_v65 (F := Ideal) x0 x1 x2 x3 (ix2 a k))
      = Cert.Gcn.convR (Cert.Gcn.scaleR fun r c => x1 (ix2 r c)) (fun r c => x1 (ix2 r c))
          (Cert.Gcn.lin (fun a k => x0 (ix2 a k)) (fun k c => x2 (ix2 k c))) (fun c => x3 (ix1 c)) :=
    funext fun a => funext fun k => layer1_apply x0 x1 x2 x3 a k
  rw [layer2_eq, RefEdges.rows_second, RefEdges.cols_second, RefEdges.weights_second]
  rw [refLayer_apply _ _ _ (fun r c => x1 (ix2 r c)) RefEdges.rows_word RefEdges.cols_word (RefEdges.weight_cell x1)
    (RefEdges.weight_loop x1) (val_main_v65 (F := Ideal) x0 x1 x2 x3) x4 x5 p q, h1]
  rfl

end Cert.ReferenceIdeal.RefValue

end
-- ==== Proof.Finite.lean ====
/-
  FINITENESS FROM THE PRECONDITION. The precondition says that a printed predicate — for each of the six argument
  arrays `jnp.all (|x| < +∞)`, the six conjoined — is 1. Read back: every entry of every argument array is a real
  number (neither infinity). An `and` of one-bit words is 1 exactly when both are; a reduction by `and` over all
  axes that is 1 met a 1 at every index; and `|x| < +∞` on an extended real, with `|x| = max x (−x)`, excludes
  `+∞` and `−∞` and nothing else.
-/
import proofs.«134861_g22935125360907_cont_sun_m_1221_6_alg».proof.Defs
import Idealize.ShloMosaic.Lib.ReduceAll
import Idealize.ShloMosaic.Lib.ValueIdx

noncomputable section

namespace Cert.KernelIdeal.Finite

open Cert.KernelIdeal Idealize.ShloMosaic Idealize.ShloMosaic.ValueIdx

/-- The scalar shape has one index. -/
instance : Subsingleton (⟨0, ![]⟩ : Shape).Idx := ⟨fun a b => funext fun d => d.elim0⟩

/-- The pattern `0x7F800000` denotes `+∞`. -/
theorem inf_eq_top : Ideal.ofBits .f32 0x7F800000#32 = (⊤ : EReal) := by simp [Ideal.ofBits, Ideal.ieee]

/-- ONE ENTRY: if `|v| < +∞` compares to 1, then `v` is a real number. -/
theorem real_of_abs_lt_inf (v : EReal)
    (h : Ideal.cmp .olt (max v (-v)) (Ideal.ofBits .f32 0x7F800000#32) = 1#1) : ∃ r : ℝ, v = (r : EReal) := by
  rw [inf_eq_top] at h
  unfold Ideal.cmp at h
  induction v using EReal.rec with
  | bot => simp at h
  | top => simp at h
  | coe r => exact ⟨r, rfl⟩

/-- ONE ARRAY, any shape: if `jnp.all (|x| < +∞)` — the comparison of `|x|` with the broadcast `+∞`, reduced by
    `and` over all axes into a scalar — is 1, then every entry of `x` is a real number. -/
theorem all_real {s : Shape} {axes : List (Fin s.rank)}
    (hb : (⟨0, ![]⟩ : Shape).BroadcastsInDim s (![] : Fin 0 → Fin s.rank))
    (hr : s.ReducesTo axes ⟨0, ![]⟩) (hu : 0 < (⟨0, ![]⟩ : Shape).numel)
    (x : FVec Ideal s .f32) (init : IVec ⟨0, ![]⟩ 1)
    (h : Host.reduce IntOp.andi
        (cmpf .olt (Host.absf x) (broadcastInDim s ![] hb (constant (F := Ideal) ⟨0, ![]⟩ .f32 0x7F800000#32)))
        init hr hu ix0 = 1#1) :
    ∀ i, ∃ r : ℝ, x i = (r : EReal) := fun i =>
  real_of_abs_lt_inf (x i) (Host.reduce_andi_all _ init hr hu ix0 h i)

/-- THE SIX ARGUMENT ARRAYS: under the precondition every entry of each is a real number. -/
theorem real_of_pre [Cert.Pre_finite_inputs.Facts] (m : (ℓ : Loc nD τ sig) → Buf (Elt Ideal) ℓ)
    (h : Cert.Pre_KernelIdeal m) (c : Dev nD) :
      (∀ i, ∃ r : ℝ, m ((c.tc : Thread nD τ).loc main_arg0) i = (r : EReal))
    ∧ (∀ i, ∃ r : ℝ, m ((c.tc : Thread nD τ).loc main_arg1) i = (r : EReal))
    ∧ (∀ i, ∃ r : ℝ, m ((c.tc : Thread nD τ).loc main_arg2) i = (r : EReal))
    ∧ (∀ i, ∃ r : ℝ, m ((c.tc : Thread nD τ).loc main_arg3) i = (r : EReal))
    ∧ (∀ i, ∃ r : ℝ, m ((c.tc : Thread nD τ).loc main_arg4) i = (r : EReal))
    ∧ (∀ i, ∃ r : ℝ, m ((c.tc : Thread nD τ).loc main_arg5) i = (r : EReal)) := by
  have h0 := congrFun (h c) ix0
  dsimp only [Cert.Pre_finite_inputs.fn, Cert.Pre_finite_inputs.fn_part1] at h0
  obtain ⟨h01234, h5⟩ := IntOp.andi_eq_one.1 h0
  obtain ⟨h0123, h4⟩ := IntOp.andi_eq_one.1 h01234
  obtain ⟨h012, h3⟩ := IntOp.andi_eq_one.1 h0123
  obtain ⟨h01, h2⟩ := IntOp.andi_eq_one.1 h012
  obtain ⟨h0', h1⟩ := IntOp.andi_eq_one.1 h01
  exact ⟨all_real _ _ _ _ _ h0', all_real _ _ _ _ _ h1, all_real _ _ _ _ _ h2, all_real _ _ _ _ _ h3,
    all_real _ _ _ _ _ h4, all_real _ _ _ _ _ h5⟩

end Cert.KernelIdeal.Finite

end
-- ==== Proof.Math.lean ====
/-
  On finite values the two forms of the two-layer graph convolution agree.

  When every input is a real number, so is every intermediate value: the in-degree is a real sum plus one, a node's
  scale is `(√deg)⁻¹` where the degree is positive and zero elsewhere — which is what both the reciprocal square root
  and the quotient `1 / √deg` evaluate to —, a product of tables is a real sum of products, and a layer is the maximum of
  a real with zero. On the reals the dense form and the message form of a layer are equal by distributivity:
  `s p · (∑ r, A r p · (s r · H r q) + s p · H p q) = ∑ r, (s r · A r p · s p) · H r q + (s p · s p) · H p q`.
  So both forms are the coercion of one real function, layer by layer.
-/
import proofs.«134861_g22935125360907_cont_sun_m_1221_6_alg».proof.Proof.Spec

noncomputable section

open scoped BigOperators

namespace Cert.Gcn

open Idealize.ShloMosaic

/-- The coercion of a finite real sum is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion of a maximum of reals is the maximum of the coercions. -/
theorem coe_max (x y : ℝ) : ((max x y : ℝ) : EReal) = max (x : EReal) (y : EReal) :=
  Monotone.map_max (f := ((↑) : ℝ → EReal)) fun _ _ h => EReal.coe_le_coe_iff.mpr h

/-- The real scale of a node: `(√deg)⁻¹` where the in-degree is positive, zero elsewhere. -/
def scaleReal (A : Fin 1024 → Fin 1024 → ℝ) (c : Fin 1024) : ℝ :=
  if 0 < (∑ r, A r c) + 1 then (Real.sqrt ((∑ r, A r c) + 1))⁻¹ else 0

/-- The real layer. -/
def convReal (s : Fin 1024 → ℝ) (A : Fin 1024 → Fin 1024 → ℝ) (H : Fin 1024 → Fin 128 → ℝ) (b : Fin 128 → ℝ)
    (p : Fin 1024) (q : Fin 128) : ℝ :=
  max (s p * ((∑ r, A r p * (s r * H r q)) + s p * H p q) + b q) 0

theorem deg_coe (A : Fin 1024 → Fin 1024 → ℝ) (c : Fin 1024) :
    deg (fun r c => (A r c : EReal)) c = (((∑ r, A r c) + 1 : ℝ) : EReal) := by
  unfold deg
  rw [EReal.coe_add, coe_sum, EReal.coe_one]

/-- The reciprocal square root of a real in-degree, guarded by positivity, is the real scale. -/
theorem scaleK_coe (A : Fin 1024 → Fin 1024 → ℝ) (c : Fin 1024) :
    scaleK (fun r c => (A r c : EReal)) c = (scaleReal A c : EReal) := by
  unfold scaleK scaleReal
  rw [deg_coe]
  by_cases h : 0 < (∑ r, A r c) + 1
  · rw [if_pos (EReal.coe_pos.mpr h), if_pos h, Ideal.rsqrt_coe, if_neg (not_lt.mpr h.le), if_neg h.ne']
  · rw [if_neg (fun h' => h (EReal.coe_pos.mp h')), if_neg h, EReal.coe_zero]

/-- One over the square root of a real in-degree, guarded by positivity, is the real scale too. -/
theorem scaleR_coe (A : Fin 1024 → Fin 1024 → ℝ) (c : Fin 1024) :
    scaleR (fun r c => (A r c : EReal)) c = (scaleReal A c : EReal) := by
  unfold scaleR scaleReal
  rw [deg_coe]
  by_cases h : 0 < (∑ r, A r c) + 1
  · rw [if_pos (EReal.coe_pos.mpr h), if_pos h, Ideal.sqrt_coe, if_neg (not_lt.mpr h.le),
      Ideal.div_coe (Real.sqrt_ne_zero'.mpr h), one_mul, one_div]
  · rw [if_neg (fun h' => h (EReal.coe_pos.mp h')), if_neg h, EReal.coe_zero]

/-- A product of real tables is real. -/
theorem lin_coe (H : Fin 1024 → Fin 128 → ℝ) (W : Fin 128 → Fin 128 → ℝ) :
    lin (fun p k => (H p k : EReal)) (fun k q => (W k q : EReal)) = fun p q => ((∑ k, H p k * W k q : ℝ) : EReal) := by
  funext p q
  unfold lin
  rw [coe_sum]
  simp only [EReal.coe_mul]

/-- The dense layer of real tables is the real layer. -/
theorem convK_coe (s : Fin 1024 → ℝ) (A : Fin 1024 → Fin 1024 → ℝ) (H : Fin 1024 → Fin 128 → ℝ) (b : Fin 128 → ℝ) :
    convK (fun c => (s c : EReal)) (fun r c => (A r c : EReal)) (fun p k => (H p k : EReal)) (fun q => (b q : EReal))
      = fun p q => (convReal s A H b p q : EReal) := by
  funext p q
  unfold convK convReal
  dsimp only
  rw [coe_max, EReal.coe_add, EReal.coe_mul, EReal.coe_add, coe_sum, EReal.coe_mul, EReal.coe_zero]
  simp only [EReal.coe_mul]

/-- The message layer of real tables is the real layer: distributivity. -/
theorem convR_coe (s : Fin 1024 → ℝ) (A : Fin 1024 → Fin 1024 → ℝ) (H : Fin 1024 → Fin 128 → ℝ) (b : Fin 128 → ℝ) :
    convR (fun c => (s c : EReal)) (fun r c => (A r c : EReal)) (fun p k => (H p k : EReal)) (fun q => (b q : EReal))
      = fun p q => (convReal s A H b p q : EReal) := by
  funext p q
  have e : s p * ((∑ r, A r p * (s r * H r q)) + s p * H p q)
      = (∑ r, (s r * A r p * s p) * H r q) + (s p * s p) * H p q := by
    rw [mul_add, Finset.mul_sum]
    congr 1
    · exact Finset.sum_congr rfl fun r _ => by ring
    · ring
  unfold convR convReal
  dsimp only
  rw [e, coe_max, EReal.coe_add, EReal.coe_add, coe_sum, EReal.coe_mul, EReal.coe_mul, EReal.coe_zero]
  simp only [EReal.coe_mul]

/-- THE TWO FORMS AGREE ON REAL INPUTS. -/
theorem outK_eq_outR (X : Fin 1024 → Fin 128 → ℝ) (A : Fin 1024 → Fin 1024 → ℝ) (W1 : Fin 128 → Fin 128 → ℝ)
    (b1 : Fin 128 → ℝ) (W2 : Fin 128 → Fin 128 → ℝ) (b2 : Fin 128 → ℝ) :
    outK (fun p k => (X p k : EReal)) (fun r c => (A r c : EReal)) (fun k q => (W1 k q : EReal)) (fun q => (b1 q : EReal))
        (fun k q => (W2 k q : EReal)) (fun q => (b2 q : EReal))
      = outR (fun p k => (X p k : EReal)) (fun r c => (A r c : EReal)) (fun k q => (W1 k q : EReal)) (fun q => (b1 q : EReal))
        (fun k q => (W2 k q : EReal)) (fun q => (b2 q : EReal)) := by
  have hK : scaleK (fun r c => (A r c : EReal)) = fun c => (scaleReal A c : EReal) := funext (scaleK_coe A)
  have hR : scaleR (fun r c => (A r c : EReal)) = fun c => (scaleReal A c : EReal) := funext (scaleR_coe A)
  unfold outK outR
  rw [hK, hR, lin_coe X W1, convK_coe (scaleReal A) A _ b1, convR_coe (scaleReal A) A _ b1, lin_coe _ W2,
    convK_coe (scaleReal A) A _ b2, convR_coe (scaleReal A) A _ b2]

end Cert.Gcn

end
-- ==== Proof.Bridge.lean ====
/-
  THE TWO FORMS AGREE ON THE ARGUMENT ARRAYS UNDER THE PRECONDITION. The dense form and the message-passing form of
  the two-layer graph convolution agree on tables of real numbers (distributivity; on the extended reals it fails at
  the infinities). The precondition makes every entry of the six argument arrays a real number, so each array, read
  by coordinates, is the coercion of a table of reals, and the two forms agree on them.
-/
import proofs.«134861_g22935125360907_cont_sun_m_1221_6_alg».proof.Proof.Finite
import proofs.«134861_g22935125360907_cont_sun_m_1221_6_alg».proof.Proof.Math
import proofs.«134861_g22935125360907_cont_sun_m_1221_6_alg».proof.Proof.Gen.Pre_finite_inputs

noncomputable section

namespace Cert.KernelIdeal.Bridge

open Cert.KernelIdeal Idealize.ShloMosaic Idealize.ShloMosaic.ValueIdx

/-- THE TWO FORMS AGREE on the six argument arrays of a memory that satisfies the precondition. -/
theorem forms_agree (m : (ℓ : Loc nD τ sig) → Buf (Elt Ideal) ℓ) (h : Cert.Pre_KernelIdeal m) (c : Dev nD) :
      Cert.Gcn.outK (fun a k => m ((c.tc : Thread nD τ).loc main_arg0) (ix2 a k)) (fun r a => m ((c.tc : Thread nD τ).loc main_arg1) (ix2 r a))
          (fun k b => m ((c.tc : Thread nD τ).loc main_arg2) (ix2 k b)) (fun b => m ((c.tc : Thread nD τ).loc main_arg3) (ix1 b))
          (fun k b => m ((c.tc : Thread nD τ).loc main_arg4) (ix2 k b)) (fun b => m ((c.tc : Thread nD τ).loc main_arg5) (ix1 b))
        = Cert.Gcn.outR (fun a k => m ((c.tc : Thread nD τ).loc main_arg0) (ix2 a k)) (fun r a => m ((c.tc : Thread nD τ).loc main_arg1) (ix2 r a))
          (fun k b => m ((c.tc : Thread nD τ).loc main_arg2) (ix2 k b)) (fun b => m ((c.tc : Thread nD τ).loc main_arg3) (ix1 b))
          (fun k b => m ((c.tc : Thread nD τ).loc main_arg4) (ix2 k b)) (fun b => m ((c.tc : Thread nD τ).loc main_arg5) (ix1 b)) := by
  obtain ⟨h0, h1, h2, h3, h4, h5⟩ := Cert.KernelIdeal.Finite.real_of_pre m h c
  -- each array by coordinates is a table of reals
  choose X hX using fun (a : Fin 1024) (k : Fin 128) => h0 (ix2 a k)
  choose A hA using fun (r a : Fin 1024) => h1 (ix2 r a)
  choose W1 hW1 using fun (k b : Fin 128) => h2 (ix2 k b)
  choose b1 hb1 using fun (b : Fin 128) => h3 (ix1 b)
  choose W2 hW2 using fun (k b : Fin 128) => h4 (ix2 k b)
  choose b2 hb2 using fun (b : Fin 128) => h5 (ix1 b)
  have e0 : (fun a k => m ((c.tc : Thread nD τ).loc main_arg0) (ix2 a k)) = fun a k => (X a k : EReal) :=
    funext fun a => funext fun k => hX a k
  have e1 : (fun r a => m ((c.tc : Thread nD τ).loc main_arg1) (ix2 r a)) = fun r a => (A r a : EReal) :=
    funext fun r => funext fun a => hA r a
  have e2 : (fun k b => m ((c.tc : Thread nD τ).loc main_arg2) (ix2 k b)) = fun k b => (W1 k b : EReal) :=
    funext fun k => funext fun b => hW1 k b
  have e3 : (fun b => m ((c.tc : Thread nD τ).loc main_arg3) (ix1 b)) = fun b => (b1 b : EReal) :=
    funext fun b => hb1 b
  have e4 : (fun k b => m ((c.tc : Thread nD τ).loc main_arg4) (ix2 k b)) = fun k b => (W2 k b : EReal) :=
    funext fun k => funext fun b => hW2 k b
  have e5 : (fun b => m ((c.tc : Thread nD τ).loc main_arg5) (ix1 b)) = fun b => (b2 b : EReal) :=
    funext fun b => hb2 b
  rw [e0, e1, e2, e3, e4, e5]
  exact Cert.Gcn.outK_eq_outR X A W1 b1 W2 b2

end Cert.KernelIdeal.Bridge

end
-- ==== Proof.lean ====
/-
  A fused two-layer graph convolution against its edge-list reference, on the extended reals.

  The kernel holds the dense 1024 × 1024 adjacency `A` and computes each layer as dense linear algebra: with
  `deg c = ∑ r, A r c + 1` (the self loop) and `s = deg^(-1/2)` where the degree is positive, zero elsewhere, a layer is
  `relu (s ⊙ (Aᵀ (s ⊙ (H W)) + s ⊙ (H W)) + b)`. The reference expands `A` into the list of its 1024² cells followed
  by the 1024 self loops, scatters the weights to get the same degrees, takes `1 / √deg`, gives every edge the weight
  `s (source) · weight · s (target)`, gathers the source rows of `H W`, multiplies and scatters onto the targets.
  Read at an index, the kernel's result is the dense form (`KernelValue`) and the reference's the message form
  (`RefValue`: the sum over the edges into a node is the sum over a column of `A` plus the self loop's term). The two
  forms agree where every input is a real number, by distributivity and because `(√d)⁻¹ = 1 / √d` for `d > 0`
  (`Math`, `Bridge`): this is where the precondition, every input finite, is used. The kernel's idealization
  rewrote nothing, so there is nothing to preserve.
-/
import proofs.«134861_g22935125360907_cont_sun_m_1221_6_alg».proof.Defs
import proofs.«134861_g22935125360907_cont_sun_m_1221_6_alg».proof.Proof.Gen.Kernel
import proofs.«134861_g22935125360907_cont_sun_m_1221_6_alg».proof.Proof.Gen.Kernel.Skeleton
import proofs.«134861_g22935125360907_cont_sun_m_1221_6_alg».proof.Proof.Gen.Kernel.Launch
import proofs.«134861_g22935125360907_cont_sun_m_1221_6_alg».proof.Proof.Gen.Kernel.Points
import proofs.«134861_g22935125360907_cont_sun_m_1221_6_alg».proof.Proof.Gen.Kernel.Frame
import proofs.«134861_g22935125360907_cont_sun_m_1221_6_alg».proof.Proof.Gen.KernelIdeal
import proofs.«134861_g22935125360907_cont_sun_m_1221_6_alg».proof.Proof.Gen.KernelIdeal.Skeleton
import proofs.«134861_g22935125360907_cont_sun_m_1221_6_alg».proof.Proof.Gen.KernelIdeal.Launch
import proofs.«134861_g22935125360907_cont_sun_m_1221_6_alg».proof.Proof.Gen.KernelIdeal.Points
import proofs.«134861_g22935125360907_cont_sun_m_1221_6_alg».proof.Proof.Gen.KernelIdeal.Frame
import proofs.«134861_g22935125360907_cont_sun_m_1221_6_alg».proof.Proof.Gen.ReferenceIdeal
import proofs.«134861_g22935125360907_cont_sun_m_1221_6_alg».proof.Proof.Gen.Pre_finite_inputs
import proofs.«134861_g22935125360907_cont_sun_m_1221_6_alg».proof.Proof.Gen.KernelIdeal.Value
import proofs.«134861_g22935125360907_cont_sun_m_1221_6_alg».proof.Proof.Gen.ReferenceIdeal.Run
import proofs.«134861_g22935125360907_cont_sun_m_1221_6_alg».proof.Proof.Gen.ReferenceIdeal.Read
import proofs.«134861_g22935125360907_cont_sun_m_1221_6_alg».proof.Proof.KernelValue
import proofs.«134861_g22935125360907_cont_sun_m_1221_6_alg».proof.Proof.RefValue
import proofs.«134861_g22935125360907_cont_sun_m_1221_6_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is a straight line of host operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Both programs end at one array: the kernel's result, which is the dense form of the network at every index, where
    the reference's is the message form; on finite inputs the two forms agree. -/
theorem algebraic : Cert.algebraic_KernelIdeal_ReferenceIdeal := by
  intro m ρ m' ρ' hpre hagree
  refine ⟨fun c => (Cert.KernelIdeal.Gen.dats m 0 c).arrAt 6 Cert.KernelIdeal.cfg0.N,
    Cert.KernelIdeal.Value.run_blocks m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v123_eq, (hagree c).1, (hagree c).2.1, (hagree c).2.2.1, (hagree c).2.2.2.1,
    (hagree c).2.2.2.2.1, (hagree c).2.2.2.2.2]
  funext i
  obtain ⟨p, q, rfl⟩ : ∃ (p : Fin 1024) (q : Fin 128), i = ValueIdx.ix2 p q := ⟨i 0, i 1, ValueIdx.eq_ix2 i⟩
  rw [Cert.ReferenceIdeal.RefValue.out_apply]
  refine Eq.trans ?_ (Cert.KernelIdeal.KValue.final_apply m c p q).symm
  exact (congrFun (congrFun (Cert.KernelIdeal.Bridge.forms_agree m hpre c) p) q).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
